-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192 : Shape := ⟨2, ![4, 8192]⟩
abbrev S3x3 : Shape := ⟨2, ![3, 3]⟩
abbrev S8192x8192 : Shape := ⟨2, ![8192, 8192]⟩
abbrev S_ : Shape := ⟨0, ![]⟩

class Facts : Prop where
  bcast_S_S4x8192 : S_.BroadcastsInDim S4x8192 (![] : Fin 0 → Fin S4x8192.rank)
  reducesTo_S4x8192_S_d0_1 : S4x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S4x8192 .f32) (main_arg1 : IVec S3x3 32) (main_arg2 : FVec F S8192x8192 .f32) : IVec S_ 1 :=
  let main_v0 : FVec F S4x8192 .f32 := Host.absf main_arg0
  let main_cst : FVec F S_ .f32 := constant S_ .f32 0x7F800000#32
  let main_v1 : FVec F S4x8192 .f32 := broadcastInDim S4x8192 ![] bcast_S_S4x8192 main_cst
  let main_v2 : IVec S4x8192 1 := cmpf .olt main_v0 main_v1
  let main_c : IVec S_ 1 := constantI S_ 1 1#1
  let main_v3 : IVec S_ 1 := (fun x v => Host.reduce IntOp.andi x v reducesTo_S4x8192_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S4x8192 : Shape := ⟨2, ![4, 8192]⟩
abbrev S3x3 : Shape := ⟨2, ![3, 3]⟩
abbrev S8192x8192 : Shape := ⟨2, ![8192, 8192]⟩
abbrev S4x1x8192 : Shape := ⟨3, ![4, 1, 8192]⟩
abbrev S1x4x8192 : Shape := ⟨3, ![1, 4, 8192]⟩
abbrev S4x4x8192 : Shape := ⟨3, ![4, 4, 8192]⟩
abbrev S_ : Shape := ⟨0, ![]⟩
abbrev S4x4 : Shape := ⟨2, ![4, 4]⟩
abbrev S1x1 : Shape := ⟨2, ![1, 1]⟩
abbrev S1 : Shape := ⟨1, ![1]⟩
abbrev S2 : Shape := ⟨1, ![2]⟩
abbrev S3 : Shape := ⟨1, ![3]⟩
abbrev S1x3 : Shape := ⟨2, ![1, 3]⟩
abbrev S3x8192 : Shape := ⟨2, ![3, 8192]⟩
abbrev S1x8192 : Shape := ⟨2, ![1, 8192]⟩
abbrev S4x2048 : Shape := ⟨2, ![4, 2048]⟩
abbrev S2048x2048 : Shape := ⟨2, ![2048, 2048]⟩

abbrev nBuf : Space → Nat
  | .hbm => 126
  | .vmem => 7
  | .smem => 0
  | _ => 0

abbrev bufTy : (tb : Table) → Fin (tcTables nBuf tb) → BufTy
  | .hbm, ⟨0, _⟩ => ⟨S4x8192, .f32⟩
  | .hbm, ⟨1, _⟩ => ⟨S3x3, .i32⟩
  | .hbm, ⟨2, _⟩ => ⟨S8192x8192, .f32⟩
  | .hbm, ⟨3, _⟩ => ⟨S4x8192, .f32⟩
  | .hbm, ⟨4, _⟩ => ⟨S4x1x8192, .f32⟩
  | .hbm, ⟨5, _⟩ => ⟨S1x4x8192, .f32⟩
  | .hbm, ⟨6, _⟩ => ⟨S4x4x8192, .f32⟩
  | .hbm, ⟨7, _⟩ => ⟨S4x4x8192, .f32⟩
  | .hbm, ⟨8, _⟩ => ⟨S4x4x8192, .f32⟩
  | .hbm, ⟨9, _⟩ => ⟨S4x4x8192, .f32⟩
  | .hbm, ⟨10, _⟩ => ⟨S_, .f32⟩
  | .hbm, ⟨11, _⟩ => ⟨S4x4, .f32⟩
  | .hbm, ⟨12, _⟩ => ⟨S_, .f32⟩
  | .hbm, ⟨13, _⟩ => ⟨S4x4, .f32⟩
  | .hbm, ⟨14, _⟩ => ⟨S4x4, .i1⟩
  | .hbm, ⟨15, _⟩ => ⟨S_, .f32⟩
  | .hbm, ⟨16, _⟩ => ⟨S_, .f32⟩
  | .hbm, ⟨17, _⟩ => ⟨S4x4, .f32⟩
  | .hbm, ⟨18, _⟩ => ⟨S4x4, .f32⟩
  | .hbm, ⟨19, _⟩ => ⟨S_, .f32⟩
  | .hbm, ⟨20, _⟩ => ⟨S4x4, .f32⟩
  | .hbm, ⟨21, _⟩ => ⟨S4x4, .i1⟩
  | .hbm, ⟨22, _⟩ => ⟨S4x4, .f32⟩
  | .hbm, ⟨23, _⟩ => ⟨S_, .f32⟩
  | .hbm, ⟨24, _⟩ => ⟨S_, .f32⟩
  | .hbm, ⟨25, _⟩ => ⟨S4x4, .f32⟩
  | .hbm, ⟨26, _⟩ => ⟨S4x4, .f32⟩
  | .hbm, ⟨27, _⟩ => ⟨S_, .f32⟩
  | .hbm, ⟨28, _⟩ => ⟨S4x4, .f32⟩
  | .hbm, ⟨29, _⟩ => ⟨S4x4, .i1⟩
  | .hbm, ⟨30, _⟩ => ⟨S_, .f32⟩
  | .hbm, ⟨31, _⟩ => ⟨S4x4, .f32⟩
  | .hbm, ⟨32, _⟩ => ⟨S4x4, .f32⟩
  | .hbm, ⟨33, _⟩ => ⟨S4x4, .f32⟩
  | .hbm, ⟨34, _⟩ => ⟨S3x3, .f32⟩
  | .hbm, ⟨35, _⟩ => ⟨S1x1, .f32⟩
  | .hbm, ⟨36, _⟩ => ⟨S_, .f32⟩
  | .hbm, ⟨37, _⟩ => ⟨S1x1, .f32⟩
  | .hbm, ⟨38, _⟩ => ⟨S_, .f32⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x1, .f32⟩
  | .hbm, ⟨46, _⟩ => ⟨S_, .f32⟩
  | .hbm, ⟨47, _⟩ => ⟨S1x1, .f32⟩
  | .hbm, ⟨48, _⟩ => ⟨S_, .f32⟩
  | .hbm, ⟨49, _⟩ => ⟨S1x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S1x1, .f32⟩
  | .hbm, ⟨56, _⟩ => ⟨S_, .f32⟩
  | .hbm, ⟨57, _⟩ => ⟨S1x1, .f32⟩
  | .hbm, ⟨58, _⟩ => ⟨S_, .f32⟩
  | .hbm, ⟨59, _⟩ => ⟨S1x1, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S1, .i32⟩
  | .hbm, ⟨67, _⟩ => ⟨S_, .i32⟩
  | .hbm, ⟨68, _⟩ => ⟨S1, .i32⟩
  | .hbm, ⟨69, _⟩ => ⟨S2, .i32⟩
  | .hbm, ⟨70, _⟩ => ⟨S3x3, .f32⟩
  | .hbm, ⟨71, _⟩ => ⟨S_, .i32⟩
  | .hbm, ⟨72, _⟩ => ⟨S1, .i32⟩
  | .hbm, ⟨73, _⟩ => ⟨S_, .i32⟩
  | .hbm, ⟨74, _⟩ => ⟨S1, .i32⟩
  | .hbm, ⟨75, _⟩ => ⟨S2, .i32⟩
  | .hbm, ⟨76, _⟩ => ⟨S3x3, .f32⟩
  | .hbm, ⟨77, _⟩ => ⟨S_, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S2, .i32⟩
  | .hbm, ⟨82, _⟩ => ⟨S3x3, .f32⟩
  | .hbm, ⟨83, _⟩ => ⟨S_, .i32⟩
  | .hbm, ⟨84, _⟩ => ⟨S1, .i32⟩
  | .hbm, ⟨85, _⟩ => ⟨S_, .i32⟩
  | .hbm, ⟨86, _⟩ => ⟨S1, .i32⟩
  | .hbm, ⟨87, _⟩ => ⟨S2, .i32⟩
  | .hbm, ⟨88, _⟩ => ⟨S3x3, .f32⟩
  | .hbm, ⟨89, _⟩ => ⟨S_, .i32⟩
  | .hbm, ⟨90, _⟩ => ⟨S1, .i32⟩
  | .hbm, ⟨91, _⟩ => ⟨S_, .i32⟩
  | .hbm, ⟨92, _⟩ => ⟨S1, .i32⟩
  | .hbm, ⟨93, _⟩ => ⟨S2, .i32⟩
  | .hbm, ⟨94, _⟩ => ⟨S3x3, .f32⟩
  | .hbm, ⟨95, _⟩ => ⟨S_, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S2, .i32⟩
  | .hbm, ⟨100, _⟩ => ⟨S3x3, .f32⟩
  | .hbm, ⟨101, _⟩ => ⟨S_, .i32⟩
  | .hbm, ⟨102, _⟩ => ⟨S3x3, .i32⟩
  | .hbm, ⟨103, _⟩ => ⟨S3x3, .i1⟩
  | .hbm, ⟨104, _⟩ => ⟨S_, .f32⟩
  | .hbm, ⟨105, _⟩ => ⟨S_, .f32⟩
  | .hbm, ⟨106, _⟩ => ⟨S3x3, .f32⟩
  | .hbm, ⟨107, _⟩ => ⟨S3x3, .f32⟩
  | .hbm, ⟨108, _⟩ => ⟨S_, .f32⟩
  | .hbm, ⟨109, _⟩ => ⟨S3, .f32⟩
  | .hbm, ⟨110, _⟩ => ⟨S_, .f32⟩
  | .hbm, ⟨111, _⟩ => ⟨S3, .f32⟩
  | .hbm, ⟨112, _⟩ => ⟨S3, .f32⟩
  | .hbm, ⟨113, _⟩ => ⟨S1x3, .f32⟩
  | .hbm, ⟨114, _⟩ => ⟨S3x3, .f32⟩
  | .hbm, ⟨115, _⟩ => ⟨S3x3, .f32⟩
  | .hbm, ⟨116, _⟩ => ⟨S3x3, .f32⟩
  | .hbm, ⟨117, _⟩ => ⟨S_, .f32⟩
  | .hbm, ⟨118, _⟩ => ⟨S3, .f32⟩
  | .hbm, ⟨119, _⟩ => ⟨S1x3, .f32⟩
  | .hbm, ⟨120, _⟩ => ⟨S3x3, .f32⟩
  | .hbm, ⟨121, _⟩ => ⟨S3x3, .f32⟩
  | .hbm, ⟨122, _⟩ => ⟨S3x8192, .f32⟩
  | .hbm, ⟨123, _⟩ => ⟨S3x8192, .f32⟩
  | .hbm, ⟨124, _⟩ => ⟨S1x8192, .f32⟩
  | .hbm, ⟨125, _⟩ => ⟨S4x8192, .f32⟩
  | .local _ .vmem, ⟨0, _⟩ => ⟨S4x2048, .f32⟩
  | .local _ .vmem, ⟨1, _⟩ => ⟨S4x2048, .f32⟩
  | .local _ .vmem, ⟨2, _⟩ => ⟨S2048x2048, .f32⟩
  | .local _ .vmem, ⟨3, _⟩ => ⟨S2048x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst : Ref sig .tc := ⟨.hbm, 10, rfl⟩
abbrev main_call0_v7 : Ref sig .tc := ⟨.hbm, 11, rfl⟩
abbrev main_call0_cst_0 : Ref sig .tc := ⟨.hbm, 12, rfl⟩
abbrev main_call0_v8 : Ref sig .tc := ⟨.hbm, 13, rfl⟩
abbrev main_call0_v9 : Ref sig .tc := ⟨.hbm, 14, rfl⟩
abbrev main_call0_cst_1 : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_v10 : Ref sig .tc := ⟨.hbm, 18, rfl⟩
abbrev main_call0_cst_2 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst_3 : Ref sig .tc := ⟨.hbm, 23, rfl⟩
abbrev main_call0_call1_v0 : Ref sig .tc := ⟨.hbm, 24, rfl⟩
abbrev main_call0_call1_v1 : Ref sig .tc := ⟨.hbm, 25, rfl⟩
abbrev main_call0_v14 : Ref sig .tc := ⟨.hbm, 26, rfl⟩
abbrev main_call0_cst_4 : Ref sig .tc := ⟨.hbm, 27, rfl⟩
abbrev main_call0_v15 : Ref sig .tc := ⟨.hbm, 28, rfl⟩
abbrev main_call0_v16 : Ref sig .tc := ⟨.hbm, 29, rfl⟩
abbrev main_call0_cst_5 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_cst_6 : Ref sig .tc := ⟨.hbm, 42, rfl⟩
abbrev main_call0_v28 : Ref sig .tc := ⟨.hbm, 43, rfl⟩
abbrev main_v0_1 : Ref sig .tc := ⟨.hbm, 44, rfl⟩
abbrev main_call0_v30 : Ref sig .tc := ⟨.hbm, 45, rfl⟩
abbrev main_call0_v31 : Ref sig .tc := ⟨.hbm, 46, rfl⟩
abbrev main_call0_v32 : Ref sig .tc := ⟨.hbm, 47, rfl⟩
abbrev main_call0_v33 : Ref sig .tc := ⟨.hbm, 48, rfl⟩
abbrev main_call0_v34 : Ref sig .tc := ⟨.hbm, 49, rfl⟩
abbrev main_call0_v35 : Ref sig .tc := ⟨.hbm, 50, rfl⟩
abbrev main_call0_v36 : Ref sig .tc := ⟨.hbm, 51, rfl⟩
abbrev main_call0_cst_7 : Ref sig .tc := ⟨.hbm, 52, rfl⟩
abbrev main_call0_v37 : Ref sig .tc := ⟨.hbm, 53, rfl⟩
abbrev main_v0_2 : Ref sig .tc := ⟨.hbm, 54, rfl⟩
abbrev main_call0_v39 : Ref sig .tc := ⟨.hbm, 55, rfl⟩
abbrev main_call0_v40 : Ref sig .tc := ⟨.hbm, 56, rfl⟩
abbrev main_call0_v41 : Ref sig .tc := ⟨.hbm, 57, rfl⟩
abbrev main_call0_v42 : Ref sig .tc := ⟨.hbm, 58, rfl⟩
abbrev main_call0_v43 : Ref sig .tc := ⟨.hbm, 59, rfl⟩
abbrev main_call0_v44 : Ref sig .tc := ⟨.hbm, 60, rfl⟩
abbrev main_call0_v45 : Ref sig .tc := ⟨.hbm, 61, rfl⟩
abbrev main_call0_cst_8 : Ref sig .tc := ⟨.hbm, 62, rfl⟩
abbrev main_call0_v46 : Ref sig .tc := ⟨.hbm, 63, rfl⟩
abbrev main_v0_3 : Ref sig .tc := ⟨.hbm, 64, rfl⟩
abbrev main_call0_c : Ref sig .tc := ⟨.hbm, 65, rfl⟩
abbrev main_call0_v48 : Ref sig .tc := ⟨.hbm, 66, rfl⟩
abbrev main_call0_c_9 : Ref sig .tc := ⟨.hbm, 67, rfl⟩
abbrev main_call0_v49 : Ref sig .tc := ⟨.hbm, 68, rfl⟩
abbrev main_call0_v50 : Ref sig .tc := ⟨.hbm, 69, rfl⟩
abbrev main_call0_v51 : Ref sig .tc := ⟨.hbm, 70, rfl⟩
abbrev main_call0_c_10 : Ref sig .tc := ⟨.hbm, 71, rfl⟩
abbrev main_call0_v52 : Ref sig .tc := ⟨.hbm, 72, rfl⟩
abbrev main_call0_c_11 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_c_12 : Ref sig .tc := ⟨.hbm, 77, rfl⟩
abbrev main_call0_v56 : Ref sig .tc := ⟨.hbm, 78, rfl⟩
abbrev main_call0_c_13 : Ref sig .tc := ⟨.hbm, 79, rfl⟩
abbrev main_call0_v57 : Ref sig .tc := ⟨.hbm, 80, rfl⟩
abbrev main_call0_v58 : Ref sig .tc := ⟨.hbm, 81, rfl⟩
abbrev main_call0_v59 : Ref sig .tc := ⟨.hbm, 82, rfl⟩
abbrev main_call0_c_14 : Ref sig .tc := ⟨.hbm, 83, rfl⟩
abbrev main_call0_v60 : Ref sig .tc := ⟨.hbm, 84, rfl⟩
abbrev main_call0_c_15 : Ref sig .tc := ⟨.hbm, 85, rfl⟩
abbrev main_call0_v61 : Ref sig .tc := ⟨.hbm, 86, rfl⟩
abbrev main_call0_v62 : Ref sig .tc := ⟨.hbm, 87, rfl⟩
abbrev main_call0_v63 : Ref sig .tc := ⟨.hbm, 88, rfl⟩
abbrev main_call0_c_16 : Ref sig .tc := ⟨.hbm, 89, rfl⟩
abbrev main_call0_v64 : Ref sig .tc := ⟨.hbm, 90, rfl⟩
abbrev main_call0_c_17 : Ref sig .tc := ⟨.hbm, 91, rfl⟩
abbrev main_call0_v65 : Ref sig .tc := ⟨.hbm, 92, rfl⟩
abbrev main_call0_v66 : Ref sig .tc := ⟨.hbm, 93, rfl⟩
abbrev main_call0_v67 : Ref sig .tc := ⟨.hbm, 94, rfl⟩
abbrev main_call0_c_18 : Ref sig .tc := ⟨.hbm, 95, rfl⟩
abbrev main_call0_v68 : Ref sig .tc := ⟨.hbm, 96, rfl⟩
abbrev main_call0_c_19 : Ref sig .tc := ⟨.hbm, 97, rfl⟩
abbrev main_call0_v69 : Ref sig .tc := ⟨.hbm, 98, rfl⟩
abbrev main_call0_v70 : Ref sig .tc := ⟨.hbm, 99, rfl⟩
abbrev main_call0_v71 : Ref sig .tc := ⟨.hbm, 100, rfl⟩
abbrev main_call0_c_20 : Ref sig .tc := ⟨.hbm, 101, rfl⟩
abbrev main_call0_v72 : Ref sig .tc := ⟨.hbm, 102, rfl⟩
abbrev main_call0_v73 : Ref sig .tc := ⟨.hbm, 103, rfl⟩
abbrev main_call0_cst_21 : Ref sig .tc := ⟨.hbm, 104, rfl⟩
abbrev main_call0_call3_v0 : Ref sig .tc := ⟨.hbm, 105, rfl⟩
abbrev main_call0_call3_v1 : Ref sig .tc := ⟨.hbm, 106, rfl⟩
abbrev main_call0_v74 : Ref sig .tc := ⟨.hbm, 107, rfl⟩
abbrev main_call0_cst_22 : Ref sig .tc := ⟨.hbm, 108, rfl⟩
abbrev main_call0_v75 : Ref sig .tc := ⟨.hbm, 109, rfl⟩
abbrev main_call0_cst_23 : Ref sig .tc := ⟨.hbm, 110, rfl⟩
abbrev main_call0_v76 : Ref sig .tc := ⟨.hbm, 111, rfl⟩
abbrev main_call0_v77 : Ref sig .tc := ⟨.hbm, 112, rfl⟩
abbrev main_call0_v78 : Ref sig .tc := ⟨.hbm, 113, rfl⟩
abbrev main_call0_v79 : Ref sig .tc := ⟨.hbm, 114, rfl⟩
abbrev main_call0_v80 : Ref sig .tc := ⟨.hbm, 115, rfl⟩
abbrev main_call0_v81 : Ref sig .tc := ⟨.hbm, 116, rfl⟩
abbrev main_call0_cst_24 : Ref sig .tc := ⟨.hbm, 117, rfl⟩
abbrev main_call0_v82 : Ref sig .tc := ⟨.hbm, 118, rfl⟩
abbrev main_call0_v83 : Ref sig .tc := ⟨.hbm, 119, rfl⟩
abbrev main_call0_v84 : Ref sig .tc := ⟨.hbm, 120, rfl⟩
abbrev main_call0_v85 : Ref sig .tc := ⟨.hbm, 121, rfl⟩
abbrev main_call0_v86 : Ref sig .tc := ⟨.hbm, 122, rfl⟩
abbrev main_call0_v87 : Ref sig .tc := ⟨.hbm, 123, rfl⟩
abbrev main_call0_v88 : Ref sig .tc := ⟨.hbm, 124, rfl⟩
abbrev main_v0_0 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S4x8192_S4x1x8192_0_2 : S4x8192.BroadcastsInDim S4x1x8192 (![0, 2] : Fin 2 → Fin S4x1x8192.rank)
  bcast_S4x8192_S1x4x8192_1_2 : S4x8192.BroadcastsInDim S1x4x8192 (![1, 2] : Fin 2 → Fin S1x4x8192.rank)
  bcast_S4x1x8192_S4x4x8192_0_1_2 : S4x1x8192.BroadcastsInDim S4x4x8192 (![0, 1, 2] : Fin 3 → Fin S4x4x8192.rank)
  bcast_S1x4x8192_S4x4x8192_0_1_2 : S1x4x8192.BroadcastsInDim S4x4x8192 (![0, 1, 2] : Fin 3 → Fin S4x4x8192.rank)
  reducesTo_S4x4x8192_S4x4_d2 : S4x4x8192.ReducesTo [2] S4x4
  h_S_ : 0 < S_.numel
  bcast_S_S4x4 : S_.BroadcastsInDim S4x4 (![] : Fin 0 → Fin S4x4.rank)
  slices_S4x4_S3x3_1_1 : S4x4.Slices ![1, 1] S3x3
  slices_S4x4_S1x1_1_2 : S4x4.Slices ![1, 2] S1x1
  shapeCasts_S1x1_S_ : S1x1.ShapeCasts S_
  slices_S4x4_S1x1_0_1 : S4x4.Slices ![0, 1] S1x1
  slices_S4x4_S1x1_0_2 : S4x4.Slices ![0, 2] S1x1
  slices_S4x4_S1x1_1_3 : S4x4.Slices ![1, 3] S1x1
  slices_S4x4_S1x1_0_3 : S4x4.Slices ![0, 3] S1x1
  slices_S4x4_S1x1_2_3 : S4x4.Slices ![2, 3] S1x1
  bcast_S_S1 : S_.BroadcastsInDim S1 (![] : Fin 0 → Fin S1.rank)
  concatenates_S1_S1_S2_d0 : Shape.Concatenates [S1, S1] S2 0
  bcast_S_S3x3 : S_.BroadcastsInDim S3x3 (![] : Fin 0 → Fin S3x3.rank)
  reducesTo_S3x3_S3_d0 : S3x3.ReducesTo [0] S3
  bcast_S_S3 : S_.BroadcastsInDim S3 (![] : Fin 0 → Fin S3.rank)
  bcast_S3_S1x3_1 : S3.BroadcastsInDim S1x3 (![1] : Fin 1 → Fin S1x3.rank)
  bcast_S1x3_S3x3_0_1 : S1x3.BroadcastsInDim S3x3 (![0, 1] : Fin 2 → Fin S3x3.rank)
  slices_S4x8192_S3x8192_1_0 : S4x8192.Slices ![1, 0] S3x8192
  slices_S4x8192_S1x8192_0_0 : S4x8192.Slices ![0, 0] S1x8192
  concatenates_S1x8192_S3x8192_S4x8192_d0 : Shape.Concatenates [S1x8192, S3x8192] S4x8192 0
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  scatter_S3x3_S2_S__n_01_01_0_wf : ScatterDims.WF S3x3 S2 S_ [] [0, 1] [0, 1] 0
  dot_S3x3_S3x8192_S3x8192_1_0_0_1_n_n_wf : DotDims.WF S3x3 S3x8192 S3x8192 [1] [0] [0] [1] [] []
  dot_S4x2048_S2048x2048_S4x2048_1_0_0_1_n_n_wf : DotDims.WF S4x2048 S2048x2048 S4x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048.size a ≤ S4x8192.size a
  hwx0_0 : ∀ i : grid0.Coords, EltTy.bits .f32 = 32 ∨ (Rect.block (s := S4x8192) S4x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S8192x8192.size a
  hwx0_1 : ∀ i : grid0.Coords, EltTy.bits .f32 = 32 ∨ (Rect.block (s := S8192x8192) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x8192.size a
  hwx0_2 : ∀ i : grid0.Coords, EltTy.bits .f32 = 32 ∨ (Rect.block (s := S4x8192) S4x2048.size (cc0_transform_2 i) (hinb0_2 i)).WholeWords (EltTy.packing .f32)

variable [Facts₀]

def scatter_S3x3_S2_S__n_01_01_0 : ScatterDims S3x3 S2 S_ where
  updateWindowDims := []
  insertedWindowDims := [0, 1]
  scatterDimsToOperandDims := [0, 1]
  indexVectorDim := 0
  wf := scatter_S3x3_S2_S__n_01_01_0_wf
def dot_S3x3_S3x8192_S3x8192_1_0_0_1_n_n : DotDims S3x3 S3x8192 S3x8192 where
  lhsContracting := [1]
  rhsContracting := [0]
  lhsNonContracting := [0]
  rhsNonContracting := [1]
  lhsBatch := []
  rhsBatch := []
  wf := dot_S3x3_S3x8192_S3x8192_1_0_0_1_n_n_wf
def dot_S4x2048_S2048x2048_S4x2048_1_0_0_1_n_n : DotDims S4x2048 S2048x2048 S4x2048 where
  lhsContracting := [1]
  rhsContracting := [0]
  lhsNonContracting := [0]
  rhsNonContracting := [1]
  lhsBatch := []
  rhsBatch := []
  wf := dot_S4x2048_S2048x2048_S4x2048_1_0_0_1_n_n_wf

abbrev win0_0 : Pipeline.Window sig grid0 :=
  Pipeline.Window.ofSpec (Memref.whole main_arg0) S4x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S4x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192 : Shape := ⟨2, ![4, 8192]⟩
abbrev S3x3 : Shape := ⟨2, ![3, 3]⟩
abbrev S8192x8192 : Shape := ⟨2, ![8192, 8192]⟩
abbrev S4x1x8192 : Shape := ⟨3, ![4, 1, 8192]⟩
abbrev S1x4x8192 : Shape := ⟨3, ![1, 4, 8192]⟩
abbrev S4x4x8192 : Shape := ⟨3, ![4, 4, 8192]⟩
abbrev S_ : Shape := ⟨0, ![]⟩
abbrev S4x4 : Shape := ⟨2, ![4, 4]⟩
abbrev S3x8192 : Shape := ⟨2, ![3, 8192]⟩
abbrev S3x1x8192 : Shape := ⟨3, ![3, 1, 8192]⟩
abbrev S1x3x8192 : Shape := ⟨3, ![1, 3, 8192]⟩
abbrev S3x3x8192 : Shape := ⟨3, ![3, 3, 8192]⟩
abbrev S1x1 : Shape := ⟨2, ![1, 1]⟩
abbrev S1 : Shape := ⟨1, ![1]⟩
abbrev S2 : Shape := ⟨1, ![2]⟩
abbrev S3 : Shape := ⟨1, ![3]⟩
abbrev S1x3 : Shape := ⟨2, ![1, 3]⟩
abbrev S1x8192 : Shape := ⟨2, ![1, 8192]⟩

abbrev nBuf : Space → Nat
  | .hbm => 157
  | .vmem => 0
  | .smem => 0
  | _ => 0

abbrev hbmTy0_0 (i : Nat) : BufTy := match i % 128 with
  | 0 => ⟨S4x8192, .f32⟩
  | 1 => ⟨S3x3, .i32⟩
  | 2 => ⟨S8192x8192, .f32⟩
  | 3 => ⟨S4x8192, .f32⟩
  | 4 => ⟨S4x1x8192, .f32⟩
  | 5 => ⟨S1x4x8192, .f32⟩
  | 6 => ⟨S4x4x8192, .f32⟩
  | 7 => ⟨S4x4x8192, .f32⟩
  | 8 => ⟨S4x4x8192, .f32⟩
  | 9 => ⟨S4x4x8192, .f32⟩
  | 10 => ⟨S_, .f32⟩
  | 11 => ⟨S4x4, .f32⟩
  | 12 => ⟨S_, .f32⟩
  | 13 => ⟨S4x4, .f32⟩
  | 14 => ⟨S4x4, .i1⟩
  | 15 => ⟨S_, .f32⟩
  | 16 => ⟨S_, .f32⟩
  | 17 => ⟨S4x4, .f32⟩
  | 18 => ⟨S4x4, .f32⟩
  | 19 => ⟨S_, .f32⟩
  | 20 => ⟨S4x4, .f32⟩
  | 21 => ⟨S4x4, .i1⟩
  | 22 => ⟨S4x4, .f32⟩
  | 23 => ⟨S_, .f32⟩
  | 24 => ⟨S_, .f32⟩
  | 25 => ⟨S4x4, .f32⟩
  | 26 => ⟨S4x4, .f32⟩
  | 27 => ⟨S3x8192, .f32⟩
  | 28 => ⟨S3x8192, .f32⟩
  | 29 => ⟨S3x1x8192, .f32⟩
  | 30 => ⟨S1x3x8192, .f32⟩
  | 31 => ⟨S3x3x8192, .f32⟩
  | 32 => ⟨S3x3x8192, .f32⟩
  | 33 => ⟨S3x3x8192, .f32⟩
  | 34 => ⟨S3x3x8192, .f32⟩
  | 35 => ⟨S_, .f32⟩
  | 36 => ⟨S3x3, .f32⟩
  | 37 => ⟨S_, .f32⟩
  | 38 => ⟨S3x3, .f32⟩
  | 39 => ⟨S3x3, .i1⟩
  | 40 => ⟨S_, .f32⟩
  | 41 => ⟨S_, .f32⟩
  | 42 => ⟨S3x3, .f32⟩
  | 43 => ⟨S3x3, .f32⟩
  | 44 => ⟨S_, .f32⟩
  | 45 => ⟨S3x3, .f32⟩
  | 46 => ⟨S3x3, .i1⟩
  | 47 => ⟨S3x3, .f32⟩
  | 48 => ⟨S_, .f32⟩
  | 49 => ⟨S_, .f32⟩
  | 50 => ⟨S3x3, .f32⟩
  | 51 => ⟨S3x3, .f32⟩
  | 52 => ⟨S_, .f32⟩
  | 53 => ⟨S4x4, .f32⟩
  | 54 => ⟨S4x4, .i1⟩
  | 55 => ⟨S_, .f32⟩
  | 56 => ⟨S4x4, .f32⟩
  | 57 => ⟨S4x4, .f32⟩
  | 58 => ⟨S4x4, .f32⟩
  | 59 => ⟨S_, .f32⟩
  | 60 => ⟨S3x3, .f32⟩
  | 61 => ⟨S3x3, .i1⟩
  | 62 => ⟨S_, .f32⟩
  | 63 => ⟨S3x3, .f32⟩
  | 64 => ⟨S3x3, .f32⟩
  | 65 => ⟨S3x3, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S_, .f32⟩
  | 72 => ⟨S_, .f32⟩
  | 73 => ⟨S_, .f32⟩
  | 74 => ⟨S_, .f32⟩
  | 75 => ⟨S_, .f32⟩
  | 76 => ⟨S1x1, .f32⟩
  | 77 => ⟨S_, .f32⟩
  | 78 => ⟨S1x1, .f32⟩
  | 79 => ⟨S_, .f32⟩
  | 80 => ⟨S1x1, .f32⟩
  | 81 => ⟨S_, .f32⟩
  | 82 => ⟨S_, .f32⟩
  | 83 => ⟨S_, .f32⟩
  | 84 => ⟨S_, .f32⟩
  | 85 => ⟨S_, .f32⟩
  | 86 => ⟨S1x1, .f32⟩
  | 87 => ⟨S_, .f32⟩
  | 88 => ⟨S1x1, .f32⟩
  | 89 => ⟨S_, .f32⟩
  | 90 => ⟨S1x1, .f32⟩
  | 91 => ⟨S_, .f32⟩
  | 92 => ⟨S_, .f32⟩
  | 93 => ⟨S_, .f32⟩
  | 94 => ⟨S_, .f32⟩
  | 95 => ⟨S_, .f32⟩
  | 96 => ⟨S_, .i32⟩
  | 97 => ⟨S1, .i32⟩
  | 98 => ⟨S_, .i32⟩
  | 99 => ⟨S1, .i32⟩
  | 100 => ⟨S2, .i32⟩
  | 101 => ⟨S3x3, .f32⟩
  | 102 => ⟨S_, .i32⟩
  | 103 => ⟨S1, .i32⟩
  | 104 => ⟨S_, .i32⟩
  | 105 => ⟨S1, .i32⟩
  | 106 => ⟨S2, .i32⟩
  | 107 => ⟨S3x3, .f32⟩
  | 108 => ⟨S_, .i32⟩
  | 109 => ⟨S1, .i32⟩
  | 110 => ⟨S_, .i32⟩
  | 111 => ⟨S1, .i32⟩
  | 112 => ⟨S2, .i32⟩
  | 113 => ⟨S3x3, .f32⟩
  | 114 => ⟨S_, .i32⟩
  | 115 => ⟨S1, .i32⟩
  | 116 => ⟨S_, .i32⟩
  | 117 => ⟨S1, .i32⟩
  | 118 => ⟨S2, .i32⟩
  | 119 => ⟨S3x3, .f32⟩
  | 120 => ⟨S_, .i32⟩
  | 121 => ⟨S1, .i32⟩
  | 122 => ⟨S_, .i32⟩
  | 123 => ⟨S1, .i32⟩
  | 124 => ⟨S2, .i32⟩
  | 125 => ⟨S3x3, .f32⟩
  | 126 => ⟨S_, .i32⟩
  | 127 => ⟨S1, .i32⟩
  | _ => ⟨S4x8192, .f32⟩

abbrev hbmTy0_1 (i : Nat) : BufTy := match i % 128 with
  | 0 => ⟨S_, .i32⟩
  | 1 => ⟨S1, .i32⟩
  | 2 => ⟨S2, .i32⟩
  | 3 => ⟨S3x3, .f32⟩
  | 4 => ⟨S_, .i32⟩
  | 5 => ⟨S3x3, .i32⟩
  | 6 => ⟨S3x3, .i1⟩
  | 7 => ⟨S_, .f32⟩
  | 8 => ⟨S_, .f32⟩
  | 9 => ⟨S3x3, .f32⟩
  | 10 => ⟨S3x3, .f32⟩
  | 11 => ⟨S_, .f32⟩
  | 12 => ⟨S3, .f32⟩
  | 13 => ⟨S_, .f32⟩
  | 14 => ⟨S3, .f32⟩
  | 15 => ⟨S3, .f32⟩
  | 16 => ⟨S1x3, .f32⟩
  | 17 => ⟨S3x3, .f32⟩
  | 18 => ⟨S3x3, .f32⟩
  | 19 => ⟨S3x3, .f32⟩
  | 20 => ⟨S_, .f32⟩
  | 21 => ⟨S3, .f32⟩
  | 22 => ⟨S1x3, .f32⟩
  | 23 => ⟨S3x3, .f32⟩
  | 24 => ⟨S3x3, .f32⟩
  | 25 => ⟨S3x8192, .f32⟩
  | 26 => ⟨S3x8192, .f32⟩
  | 27 => ⟨S1x8192, .f32⟩
  | 28 => ⟨S4x8192, .f32⟩
  | _ => ⟨S4x8192, .f32⟩

abbrev hbmTy (i : Nat) : BufTy := match i / 128 with
  | 0 => hbmTy0_0 i
  | 1 => hbmTy0_1 i
  | _ => ⟨S4x8192, .f32⟩

abbrev bufTy : (tb : Table) → Fin (tcTables nBuf tb) → BufTy
  | .hbm, ⟨i, _⟩ => hbmTy i
  | _, _ => ⟨S4x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v30 : Ref sig .tc := ⟨.hbm, 51, rfl⟩
abbrev main_cst_9 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_c : Ref sig .tc := ⟨.hbm, 96, rfl⟩
abbrev main_v68 : Ref sig .tc := ⟨.hbm, 97, rfl⟩
abbrev main_c_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_17 : Ref sig .tc := ⟨.hbm, 102, rfl⟩
abbrev main_v72 : Ref sig .tc := ⟨.hbm, 103, rfl⟩
abbrev main_c_18 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_19 : Ref sig .tc := ⟨.hbm, 108, rfl⟩
abbrev main_v76 : Ref sig .tc := ⟨.hbm, 109, rfl⟩
abbrev main_c_20 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_21 : Ref sig .tc := ⟨.hbm, 114, rfl⟩
abbrev main_v80 : Ref sig .tc := ⟨.hbm, 115, rfl⟩
abbrev main_c_22 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_23 : Ref sig .tc := ⟨.hbm, 120, rfl⟩
abbrev main_v84 : Ref sig .tc := ⟨.hbm, 121, rfl⟩
abbrev main_c_24 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_25 : Ref sig .tc := ⟨.hbm, 126, rfl⟩
abbrev main_v88 : Ref sig .tc := ⟨.hbm, 127, rfl⟩
abbrev main_c_26 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_27 : Ref sig .tc := ⟨.hbm, 132, rfl⟩
abbrev main_v92 : Ref sig .tc := ⟨.hbm, 133, rfl⟩
abbrev main_v93 : Ref sig .tc := ⟨.hbm, 134, rfl⟩
abbrev main_cst_28 : Ref sig .tc := ⟨.hbm, 135, rfl⟩
abbrev main_call6_v0 : Ref sig .tc := ⟨.hbm, 136, rfl⟩
abbrev main_call6_v1 : Ref sig .tc := ⟨.hbm, 137, rfl⟩
abbrev main_v94 : Ref sig .tc := ⟨.hbm, 138, rfl⟩
abbrev main_cst_29 : Ref sig .tc := ⟨.hbm, 139, rfl⟩
abbrev main_v95 : Ref sig .tc := ⟨.hbm, 140, rfl⟩
abbrev main_cst_30 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_31 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩

abbrev nD : Nat := 1
abbrev τ : Topo := Topo.v7x

variable {F : FTy → Type} [FloatOps F]

class Facts₀ : Prop where
  bcast_S4x8192_S4x1x8192_0_2 : S4x8192.BroadcastsInDim S4x1x8192 (![0, 2] : Fin 2 → Fin S4x1x8192.rank)
  bcast_S4x8192_S1x4x8192_1_2 : S4x8192.BroadcastsInDim S1x4x8192 (![1, 2] : Fin 2 → Fin S1x4x8192.rank)
  bcast_S4x1x8192_S4x4x8192_0_1_2 : S4x1x8192.BroadcastsInDim S4x4x8192 (![0, 1, 2] : Fin 3 → Fin S4x4x8192.rank)
  bcast_S1x4x8192_S4x4x8192_0_1_2 : S1x4x8192.BroadcastsInDim S4x4x8192 (![0, 1, 2] : Fin 3 → Fin S4x4x8192.rank)
  reducesTo_S4x4x8192_S4x4_d2 : S4x4x8192.ReducesTo [2] S4x4
  h_S_ : 0 < S_.numel
  bcast_S_S4x4 : S_.BroadcastsInDim S4x4 (![] : Fin 0 → Fin S4x4.rank)
  slices_S4x8192_S3x8192_1_0 : S4x8192.Slices ![1, 0] S3x8192
  bcast_S3x8192_S3x1x8192_0_2 : S3x8192.BroadcastsInDim S3x1x8192 (![0, 2] : Fin 2 → Fin S3x1x8192.rank)
  bcast_S3x8192_S1x3x8192_1_2 : S3x8192.BroadcastsInDim S1x3x8192 (![1, 2] : Fin 2 → Fin S1x3x8192.rank)
  bcast_S3x1x8192_S3x3x8192_0_1_2 : S3x1x8192.BroadcastsInDim S3x3x8192 (![0, 1, 2] : Fin 3 → Fin S3x3x8192.rank)
  bcast_S1x3x8192_S3x3x8192_0_1_2 : S1x3x8192.BroadcastsInDim S3x3x8192 (![0, 1, 2] : Fin 3 → Fin S3x3x8192.rank)
  reducesTo_S3x3x8192_S3x3_d2 : S3x3x8192.ReducesTo [2] S3x3
  bcast_S_S3x3 : S_.BroadcastsInDim S3x3 (![] : Fin 0 → Fin S3x3.rank)
  slices_S4x4_S1x1_1_2 : S4x4.Slices ![1, 2] S1x1
  shapeCasts_S1x1_S_ : S1x1.ShapeCasts S_
  slices_S4x4_S1x1_0_1 : S4x4.Slices ![0, 1] S1x1
  slices_S4x4_S1x1_0_2 : S4x4.Slices ![0, 2] S1x1
  slices_S4x4_S1x1_1_3 : S4x4.Slices ![1, 3] S1x1
  slices_S4x4_S1x1_0_3 : S4x4.Slices ![0, 3] S1x1
  slices_S4x4_S1x1_2_3 : S4x4.Slices ![2, 3] S1x1
  bcast_S_S1 : S_.BroadcastsInDim S1 (![] : Fin 0 → Fin S1.rank)
  concatenates_S1_S1_S2_d0 : Shape.Concatenates [S1, S1] S2 0
  reducesTo_S3x3_S3_d0 : S3x3.ReducesTo [0] S3
  bcast_S_S3 : S_.BroadcastsInDim S3 (![] : Fin 0 → Fin S3.rank)
  bcast_S3_S1x3_1 : S3.BroadcastsInDim S1x3 (![1] : Fin 1 → Fin S1x3.rank)
  bcast_S1x3_S3x3_0_1 : S1x3.BroadcastsInDim S3x3 (![0, 1] : Fin 2 → Fin S3x3.rank)
  slices_S4x8192_S1x8192_0_0 : S4x8192.Slices ![0, 0] S1x8192
  concatenates_S1x8192_S3x8192_S4x8192_d0 : Shape.Concatenates [S1x8192, S3x8192] S4x8192 0
  dot_S4x8192_S8192x8192_S4x8192_1_0_0_1_n_n_wf : DotDims.WF S4x8192 S8192x8192 S4x8192 [1] [0] [0] [1] [] []
  scatter_S3x3_S2_S__n_01_01_0_wf : ScatterDims.WF S3x3 S2 S_ [] [0, 1] [0, 1] 0
  dot_S3x3_S3x8192_S3x8192_1_0_0_1_n_n_wf : DotDims.WF S3x3 S3x8192 S3x8192 [1] [0] [0] [1] [] []

variable [Facts₀]

def dot_S4x8192_S8192x8192_S4x8192_1_0_0_1_n_n : DotDims S4x8192 S8192x8192 S4x8192 where
  lhsContracting := [1]
  rhsContracting := [0]
  lhsNonContracting := [0]
  rhsNonContracting := [1]
  lhsBatch := []
  rhsBatch := []
  wf := dot_S4x8192_S8192x8192_S4x8192_1_0_0_1_n_n_wf
def scatter_S3x3_S2_S__n_01_01_0 : ScatterDims S3x3 S2 S_ where
  updateWindowDims := []
  insertedWindowDims := [0, 1]
  scatterDimsToOperandDims := [0, 1]
  indexVectorDim := 0
  wf := scatter_S3x3_S2_S__n_01_01_0_wf
def dot_S3x3_S3x8192_S3x8192_1_0_0_1_n_n : DotDims S3x3 S3x8192 S3x8192 where
  lhsContracting := [1]
  rhsContracting := [0]
  lhsNonContracting := [0]
  rhsNonContracting := [1]
  lhsBatch := []
  rhsBatch := []
  wf := dot_S3x3_S3x8192_S3x8192_1_0_0_1_n_n_wf

class Facts : Prop extends Facts₀ where

variable [Facts]
-- ==== Proof.Word.Region.lean ====
/-
  The matmul region of `Kernel` and what surrounds it. The program is one pallas_call on a 4 × 4 grid (point
  t = 4·n + k: column block n of the output, contraction block k) followed by 122 host lines. Here: the arrays as
  the region finds them (no host line comes before it), the host lines after it (they touch unscoped buffers only,
  allocate nothing, and write neither an argument nor the region's result array), the two branch conditions of the
  body in closed form (k = 0: the accumulator is cleared; k = 3: the accumulator is copied to the output block),
  where the output window is idle, and the frame claim read off a run of the region followed by those lines.
-/
import proofs.«149369_j84310208020843_2_alg».proof.Proof.Gen.Kernel.Launch
import proofs.«149369_j84310208020843_2_alg».proof.Proof.Gen.Kernel.Skeleton
import proofs.«149369_j84310208020843_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the frame claim speaks of and the region's result array. -/
abbrev keptRefs : List (Ref sig .tc) := [main_arg0, main_arg1, main_arg2, main_call0_v0]

set_option maxHeartbeats 4000000 in
/-- No host line after the region writes an argument or the region's result array: each writes its own result
    buffer only. -/
theorem tail_writes : (hostOps1 : List (HloOp τ sig (Elt F))).Forall fun op => ∀ b ∈ keptRefs, Proc.devRef .tc b ∉ op.writes := by
  simp only [hostOps1, List.Forall]
  repeat' apply And.intro
  all_goals
    intro b hb
    simp only [keptRefs, List.mem_cons, List.mem_nil_iff, or_false] at hb
    rcases hb with rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 4000000 in
theorem hostOps1_fresh : (hostOps1 : List (HloOp τ sig (Elt F))).Forall fun op => op.fresh = ∅ := by
  simp only [hostOps1, List.Forall]
  repeat' apply And.intro
  all_goals rfl

set_option maxHeartbeats 40000000 in
/-- @main is the region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem arrRef_mem_kept : ∀ w : Fin 3, Pipeline.arrRef spec0 w ∈ keptRefs := by decide

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (tail_writes (F := F))) op hop _ (arrRef_mem_kept w)

theorem V_main_arg0 (c : Dev nD) : V m c main_arg0 = m ((c : Thread nD τ).loc main_arg0) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row-block window (the 4 × 2048 block k of the left factor) holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the right factor's window (its 2048 × 2048 block (k, n)) holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region and the lines after it -/

theorem main_arg1_rest : main_arg1 ∈ Pipeline.restRefs sig spec0 :=
  Pipeline.mem_restRefs_of main_arg1 rfl (by decide)

/-- After the host lines the integer argument is what the launch memory held: no line writes it. -/
theorem tail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem _ _ (fun op hop => by
    simp only [List.flatten_cons, List.flatten_nil, List.append_nil] at hop
    exact (List.forall_iff_forall_mem.mp (tail_writes (F := F))) op hop main_arg1 (by decide))]
  rw [Pipeline.withArrays_of_ne _ _ _ _ main_arg1 (by decide)]
  rfl

/-- The frame claim's post from the run's: the two staged arguments by the library's reading of an input window's
    array after the region, the integer argument by `tail_arg1`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 main_arg1_rest).trans (tail_arg1 m dats c),
     ((h c).1 1).trans (((dats 0 c).arrAt_in 1 rfl _).trans ((hA c 1).trans (V_main_arg2 m c)))⟩) h

/-! ## The body's two branch conditions -/

/-- The first `scf.if`: this is contraction block 0 (the accumulator is cleared). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second `scf.if`: this is the last contraction block (the accumulator is copied to the output block). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last contraction block the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last contraction block it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S4x2048 .f32 := (Memref.whole cc0_stg2_0 : Memref sig .tc .vmem S4x2048 .f32).view
abbrev ms0_0 (t : Fin cfg0.N) : Memref sig .tc .vmem S4x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2048 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S4x2048 .f32 := Memref.whole cc0_scratch0
abbrev VS0_0 : View sig .tc .vmem S4x2048 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Acc

end
-- ==== Proof.Word.First.lean ====
/-
  The body at contraction block 0 (k = 0, the first `scf.if` taken, the second not): the accumulator, found at anything, is
  cleared and then holds 0 + (row block · block of the right factor); the output window's buffer is not touched.
  Stated on any whole staging memrefs, as the list of stores (last first) the accumulator ends with — found by running the body — together with
  the body's triple.
-/
import proofs.«149369_j84310208020843_2_alg».proof.Proof.Word.Region

set_option maxRecDepth 16384

noncomputable section

namespace Cert.Kernel.Acc

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_First (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : cond0_0 i) (hc1 : ¬cond0_1 i)
    (x0 : Vec F S4x2048 .f32) (x1 : Vec F S2048x2048 .f32) :
    { LS0 : List (View.Piece (Elt F) S4x2048 .f32) //
      ∀ (xi2 : Vec F S4x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Acc

end
-- ==== Proof.Word.Middle.lean ====
/-
  The body at a contraction block 0 < k < 3 (neither `scf.if` taken): the accumulator, found at what the point before left,
  gains this block's product; the output window's buffer is not touched.
  Stated on any whole staging memrefs, as the list of stores (last first) the accumulator ends with — found by running the body — together with
  the body's triple.
-/
import proofs.«149369_j84310208020843_2_alg».proof.Proof.Word.Region

set_option maxRecDepth 16384

noncomputable section

namespace Cert.Kernel.Acc

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_Middle (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : ¬cond0_1 i)
    (x0 : Vec F S4x2048 .f32) (x1 : Vec F S2048x2048 .f32) (xs0 : Vec F S4x2048 .f32) :
    { LS0 : List (View.Piece (Elt F) S4x2048 .f32) //
      ∀ (xi2 : Vec F S4x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Acc

end
-- ==== Proof.Word.Last.lean ====
/-
  The body at the last contraction block (k = 3, the second `scf.if` taken): the accumulator gains this block's product and is
  then copied whole into the output window's buffer.
  Stated on any whole staging memrefs, as the list of stores (last first) the accumulator and the output buffer end with — found by running the body — together with
  the body's triple.
-/
import proofs.«149369_j84310208020843_2_alg».proof.Proof.Word.Region

set_option maxRecDepth 16384

noncomputable section

namespace Cert.Kernel.Acc

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) :
    Σ' (L2 : List (View.Piece (Elt F) S4x2048 .f32)), { LS0 : List (View.Piece (Elt F) S4x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Acc

end
-- ==== Proof.Word.Accumulate.lean ====
/-
  The accumulation over the contraction blocks and the frame of `Kernel`.
  After the body at grid position t = 4·n + k the accumulator holds, by recursion on the position: at k = 0 what the
  first case leaves (0 + the block product), otherwise what the point before left plus this block's product; the
  output window's buffer is stored only at k = 3, with the accumulator's contents, and that is the one point per n at
  which its block is written back. From this: the proof data of the pipeline, the body obligation at every point (a
  case split on k), the run of the region followed by the host lines, and the frame claim.
-/
import proofs.«149369_j84310208020843_2_alg».proof.Proof.Word.First
import proofs.«149369_j84310208020843_2_alg».proof.Proof.Word.Middle
import proofs.«149369_j84310208020843_2_alg».proof.Proof.Word.Last

set_option maxRecDepth 16384

noncomputable section

namespace Cert.Kernel.Acc

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover_First (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : cond0_0 i) (hc1 : ¬cond0_1 i)
    (x0 : Vec F S4x2048 .f32) (x1 : Vec F S2048x2048 .f32) (y : S4x2048.Idx) :
    ∃ pc ∈ (kernelRun_First c i arg2 harg2 arg3 harg3 arg4 harg4 arg5 harg5 hc0 hc1 x0 x1).1, y ∈ pc.1.set :=
  View.cover_of_tiledL (kernelRun_First c i arg2 harg2 arg3 harg3 arg4 harg4 arg5 harg5 hc0 hc1 x0 x1).1 S4x2048.size (by sl_kernel_rfl) y

/-- The accumulator after the body at k = 0. -/
def acc_First (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : cond0_0 i) (hc1 : ¬cond0_1 i)
    (x0 : Vec F S4x2048 .f32) (x1 : Vec F S2048x2048 .f32) : Vec F S4x2048 .f32 :=
  VS0_0.read (Elt F) (VS0_0.writes (Elt F) VS0_0.junk (kernelRun_First c i arg2 harg2 arg3 harg3 arg4 harg4 arg5 harg5 hc0 hc1 x0 x1).1)

theorem scover_Middle (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : ¬cond0_1 i)
    (x0 : Vec F S4x2048 .f32) (x1 : Vec F S2048x2048 .f32) (xs0 : Vec F S4x2048 .f32) (y : S4x2048.Idx) :
    ∃ pc ∈ (kernelRun_Middle c i arg2 harg2 arg3 harg3 arg4 harg4 arg5 harg5 hc0 hc1 x0 x1 xs0).1, y ∈ pc.1.set :=
  View.cover_of_tiledL (kernelRun_Middle c i arg2 harg2 arg3 harg3 arg4 harg4 arg5 harg5 hc0 hc1 x0 x1 xs0).1 S4x2048.size (by sl_kernel_rfl) y

/-- The accumulator after the body at 0 < k < 3, from what the point before left (`xs0`). -/
def acc_Middle (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : ¬cond0_1 i)
    (x0 : Vec F S4x2048 .f32) (x1 : Vec F S2048x2048 .f32) (xs0 : Vec F S4x2048 .f32) : Vec F S4x2048 .f32 :=
  VS0_0.read (Elt F) (VS0_0.writes (Elt F) VS0_0.junk (kernelRun_Middle c i arg2 harg2 arg3 harg3 arg4 harg4 arg5 harg5 hc0 hc1 x0 x1 xs0).1)

theorem cover_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) (y : S4x2048.Idx) :
    ∃ pc ∈ (kernelRun_Last c i arg2 harg2 arg3 harg3 arg4 harg4 arg5 harg5 hc0 hc1 x0 x1 xs0).1, y ∈ pc.1.set :=
  View.cover_of_tiledL (kernelRun_Last c i arg2 harg2 arg3 harg3 arg4 harg4 arg5 harg5 hc0 hc1 x0 x1 xs0).1 S4x2048.size (by sl_kernel_rfl) y

/-- The output window's buffer after the body at k = 3. -/
def out_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) : Vec F S4x2048 .f32 :=
  VO0_2.read (Elt F) (VO0_2.writes (Elt F) VO0_2.junk (kernelRun_Last c i arg2 harg2 arg3 harg3 arg4 harg4 arg5 harg5 hc0 hc1 x0 x1 xs0).1)

theorem scover_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) (y : S4x2048.Idx) :
    ∃ pc ∈ (kernelRun_Last c i arg2 harg2 arg3 harg3 arg4 harg4 arg5 harg5 hc0 hc1 x0 x1 xs0).2.1, y ∈ pc.1.set :=
  View.cover_of_tiledL (kernelRun_Last c i arg2 harg2 arg3 harg3 arg4 harg4 arg5 harg5 hc0 hc1 x0 x1 xs0).2.1 S4x2048.size (by sl_kernel_rfl) y

/-- The accumulator after the body at k = 3. -/
def acc_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) : Vec F S4x2048 .f32 :=
  VS0_0.read (Elt F) (VS0_0.writes (Elt F) VS0_0.junk (kernelRun_Last c i arg2 harg2 arg3 harg3 arg4 harg4 arg5 harg5 hc0 hc1 x0 x1 xs0).2.1)

/-! ## The accumulator position by position -/

/-- The accumulator after the body at position `n`. -/
def acc (c : Dev nD) : (n : ℕ) → n < cfg0.N → Vec F S4x2048 .f32
  | 0, hn => acc_First c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 4 = 0 then
      acc_First c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩)
    else
      if h1 : (n + 1) % 4 = 3 then
        acc_Last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (acc c n (Nat.lt_of_succ_lt hn))
      else
        acc_Middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (acc c n (Nat.lt_of_succ_lt hn))

/-- The accumulator the body finds at a position that is not the first: what the position before left. -/
abbrev accPrev (c : Dev nD) (t : Fin cfg0.N) : Vec F S4x2048 .f32 :=
  acc m c (t.val - 1) (Nat.lt_of_le_of_lt (Nat.sub_le _ _) t.isLt)

theorem acc_at_First (c : Dev nD) (t : Fin cfg0.N) (h0 : t.val % 4 = 0) (h1 : ¬t.val % 4 = 3) :
    acc m c t.val t.isLt = acc_First c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) := by
  obtain ⟨n, hn⟩ := t
  cases n with
  | zero => exact rfl
  | succ n => exact (dif_pos h0).trans rfl

theorem acc_at_Middle (c : Dev nD) (t : Fin cfg0.N) (h0 : ¬t.val % 4 = 0) (h1 : ¬t.val % 4 = 3) :
    acc m c t.val t.isLt = acc_Middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (accPrev m c t) := by
  obtain ⟨n, hn⟩ := t
  cases n with
  | zero => exact (by exfalso; (try dsimp only at h0); exact absurd (Nat.zero_mod _) h0)
  | succ n => exact (dif_neg h0).trans ((dif_neg h1).trans rfl)

theorem acc_at_Last (c : Dev nD) (t : Fin cfg0.N) (h0 : ¬t.val % 4 = 0) (h1 : t.val % 4 = 3) :
    acc m c t.val t.isLt = acc_Last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (accPrev m c t) := by
  obtain ⟨n, hn⟩ := t
  cases n with
  | zero => exact (by exfalso; (try dsimp only at h0); exact absurd (Nat.zero_mod _) h0)
  | succ n => exact (dif_neg h0).trans ((dif_pos h1).trans rfl)

/-- The output window's buffer after the body at position `t`: stored at k = 3 only (elsewhere the window is idle and
    nothing consults this value). -/
def outAt (c : Dev nD) (t : Fin cfg0.N) : Vec F S4x2048 .f32 :=
  if h1 : t.val % 4 = 3 then
    out_Last c (grid0.coords t) (ms0_0 t) (hs0_0 t) (ms0_1 t) (hs0_1 t) (ms0_2 t) (hs0_2 t) scM0_0 (Memref.isWhole_whole _) (fun h => (by omega : ¬t.val % 4 = 0) ((hcond0_0 t).mp h)) ((hcond0_1 t).mpr h1) (iblk m c 0 t) (iblk m c 1 t) (accPrev m c t)
  else VO0_2.read (Elt F) VO0_2.junk

theorem outAt_Last (c : Dev nD) (t : Fin cfg0.N) (h0 : ¬t.val % 4 = 0) (h1 : t.val % 4 = 3) :
    outAt m c t = out_Last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (accPrev m c t) := by
  unfold outAt; rw [dif_pos h1]

/-! ## The region's invariant -/

/-- Before the first point: every scoped buffer at anything. Afterwards: the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (acc m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: a case split on k; the inputs' buffers hold their blocks, the invariant hands the body the
    accumulator at what the point before left (at anything at the very first point) and takes it back at this point's
    contents; the output window's buffer is handed back untouched before k = 3 and with the accumulator's contents at k = 3. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [acc_at_First m c t h0 h1]
    unfold acc_First; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun_First c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover_First c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun_First c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover_First c _ _ _ _ _ _ _ _ _ _ _ _ _)
        iexact Hg
      isplitl [Ho]; · iexact Ho
      isplitl [H0]; · iexact H0
      isplitl [H1]; · iexact H1
      iexists _; iexact H2
  · by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outAt_Last m c t h0 h1, acc_at_Last m c t h0 h1]
      unfold out_Last acc_Last; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩⟩
        iapply ((kernelRun_Last c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover_Last c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_Last c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [acc_at_Middle m c t h0 h1]
      unfold acc_Middle; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩⟩
        iapply ((kernelRun_Middle c (grid0.coords t) _ _ _ _ _ _ _ _ (fun h => h0 ((hcond0_0 t).mp h)) (fun h => h1 ((hcond0_1 t).mp h)) (iblk m c 0 t) (iblk m c 1 t) _).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover_Middle c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxHeartbeats 40000000 in
set_option backward.isDefEq.respectTransparency.types false in
/-- Every weakly fair execution of @main terminates; at the end every array of the pipeline holds what the library
    computes from the proof data and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame of `Kernel` at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Acc

end
-- ==== Proof.Ideal.Region.lean ====
/-
  The matmul region of `KernelIdeal` and what surrounds it. The program is one pallas_call on a 4 × 4 grid (point
  t = 4·n + k: column block n of the output, contraction block k) followed by 122 host lines. Here: the arrays as
  the region finds them (no host line comes before it), the host lines after it (they touch unscoped buffers only,
  allocate nothing, and write neither an argument nor the region's result array), the two branch conditions of the
  body in closed form (k = 0: the accumulator is cleared; k = 3: the accumulator is copied to the output block),
  where the output window is idle, and the frame claim read off a run of the region followed by those lines.
-/
import proofs.«149369_j84310208020843_2_alg».proof.Proof.Gen.KernelIdeal.Launch
import proofs.«149369_j84310208020843_2_alg».proof.Proof.Gen.KernelIdeal.Skeleton
import proofs.«149369_j84310208020843_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The buffers the frame claim speaks of and the region's result array. -/
abbrev keptRefs : List (Ref sig .tc) := [main_arg0, main_arg1, main_arg2, main_call0_v0]

set_option maxHeartbeats 4000000 in
/-- No host line after the region writes an argument or the region's result array: each writes its own result
    buffer only. -/
theorem tail_writes : (hostOps1 : List (HloOp τ sig (Elt F))).Forall fun op => ∀ b ∈ keptRefs, Proc.devRef .tc b ∉ op.writes := by
  simp only [hostOps1, List.Forall]
  repeat' apply And.intro
  all_goals
    intro b hb
    simp only [keptRefs, List.mem_cons, List.mem_nil_iff, or_false] at hb
    rcases hb with rfl | rfl | rfl | rfl <;>
      simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;>
      exact StableHlo.devRef_ne_of_ne (by decide)

set_option maxHeartbeats 4000000 in
theorem hostOps1_fresh : (hostOps1 : List (HloOp τ sig (Elt F))).Forall fun op => op.fresh = ∅ := by
  simp only [hostOps1, List.Forall]
  repeat' apply And.intro
  all_goals rfl

set_option maxHeartbeats 40000000 in
/-- @main is the region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem arrRef_mem_kept : ∀ w : Fin 3, Pipeline.arrRef spec0 w ∈ keptRefs := by decide

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  exact (List.forall_iff_forall_mem.mp (tail_writes (F := F))) op hop _ (arrRef_mem_kept w)

theorem V_main_arg0 (c : Dev nD) : V m c main_arg0 = m ((c : Thread nD τ).loc main_arg0) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of the row-block window (the 4 × 2048 block k of the left factor) holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The staging buffer of the right factor's window (its 2048 × 2048 block (k, n)) holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run of the region and the lines after it -/

theorem main_arg1_rest : main_arg1 ∈ Pipeline.restRefs sig spec0 :=
  Pipeline.mem_restRefs_of main_arg1 rfl (by decide)

/-- After the host lines the integer argument is what the launch memory held: no line writes it. -/
theorem tail_arg1 (dats : (p : Fin 1) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem _ _ (fun op hop => by
    simp only [List.flatten_cons, List.flatten_nil, List.append_nil] at hop
    exact (List.forall_iff_forall_mem.mp (tail_writes (F := F))) op hop main_arg1 (by decide))]
  rw [Pipeline.withArrays_of_ne _ _ _ _ main_arg1 (by decide)]
  rfl

/-- The frame claim's post from the run's: the two staged arguments by the library's reading of an input window's
    array after the region, the integer argument by `tail_arg1`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_main_arg0 m c))),
     ((h c).2 main_arg1 main_arg1_rest).trans (tail_arg1 m dats c),
     ((h c).1 1).trans (((dats 0 c).arrAt_in 1 rfl _).trans ((hA c 1).trans (V_main_arg2 m c)))⟩) h

/-! ## The body's two branch conditions -/

/-- The first `scf.if`: this is contraction block 0 (the accumulator is cleared). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second `scf.if`: this is the last contraction block (the accumulator is copied to the output block). -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Before the last contraction block the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last contraction block it is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S4x2048 .f32 := (Memref.whole cc0_stg2_0 : Memref sig .tc .vmem S4x2048 .f32).view
abbrev ms0_0 (t : Fin cfg0.N) : Memref sig .tc .vmem S4x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x2048 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S4x2048 .f32 := Memref.whole cc0_scratch0
abbrev VS0_0 : View sig .tc .vmem S4x2048 .f32 := scM0_0.view

/-- The region's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Acc

end
-- ==== Proof.Ideal.First.lean ====
/-
  The body at contraction block 0 (k = 0, the first `scf.if` taken, the second not): the accumulator, found at anything, is
  cleared and then holds 0 + (row block · block of the right factor); the output window's buffer is not touched.
  Stated on any whole staging memrefs, as the list of stores (last first) the accumulator ends with — found by running the body — together with
  the body's triple.
-/
import proofs.«149369_j84310208020843_2_alg».proof.Proof.Ideal.Region

set_option maxRecDepth 16384

noncomputable section

namespace Cert.KernelIdeal.Acc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_First (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : cond0_0 i) (hc1 : ¬cond0_1 i)
    (x0 : Vec F S4x2048 .f32) (x1 : Vec F S2048x2048 .f32) :
    { LS0 : List (View.Piece (Elt F) S4x2048 .f32) //
      ∀ (xi2 : Vec F S4x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Acc

end
-- ==== Proof.Ideal.Middle.lean ====
/-
  The body at a contraction block 0 < k < 3 (neither `scf.if` taken): the accumulator, found at what the point before left,
  gains this block's product; the output window's buffer is not touched.
  Stated on any whole staging memrefs, as the list of stores (last first) the accumulator ends with — found by running the body — together with
  the body's triple.
-/
import proofs.«149369_j84310208020843_2_alg».proof.Proof.Ideal.Region

set_option maxRecDepth 16384

noncomputable section

namespace Cert.KernelIdeal.Acc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_Middle (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : ¬cond0_1 i)
    (x0 : Vec F S4x2048 .f32) (x1 : Vec F S2048x2048 .f32) (xs0 : Vec F S4x2048 .f32) :
    { LS0 : List (View.Piece (Elt F) S4x2048 .f32) //
      ∀ (xi2 : Vec F S4x2048 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Acc

end
-- ==== Proof.Ideal.Last.lean ====
/-
  The body at the last contraction block (k = 3, the second `scf.if` taken): the accumulator gains this block's product and is
  then copied whole into the output window's buffer.
  Stated on any whole staging memrefs, as the list of stores (last first) the accumulator and the output buffer end with — found by running the body — together with
  the body's triple.
-/
import proofs.«149369_j84310208020843_2_alg».proof.Proof.Ideal.Region

set_option maxRecDepth 16384

noncomputable section

namespace Cert.KernelIdeal.Acc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) :
    Σ' (L2 : List (View.Piece (Elt F) S4x2048 .f32)), { LS0 : List (View.Piece (Elt F) S4x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Acc

end
-- ==== Proof.Ideal.Accumulate.lean ====
/-
  The accumulation over the contraction blocks and the frame of `KernelIdeal`.
  After the body at grid position t = 4·n + k the accumulator holds, by recursion on the position: at k = 0 what the
  first case leaves (0 + the block product), otherwise what the point before left plus this block's product; the
  output window's buffer is stored only at k = 3, with the accumulator's contents, and that is the one point per n at
  which its block is written back. From this: the proof data of the pipeline, the body obligation at every point (a
  case split on k), the run of the region followed by the host lines, and the frame claim.
-/
import proofs.«149369_j84310208020843_2_alg».proof.Proof.Ideal.First
import proofs.«149369_j84310208020843_2_alg».proof.Proof.Ideal.Middle
import proofs.«149369_j84310208020843_2_alg».proof.Proof.Ideal.Last

set_option maxRecDepth 16384

noncomputable section

namespace Cert.KernelIdeal.Acc

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover_First (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : cond0_0 i) (hc1 : ¬cond0_1 i)
    (x0 : Vec F S4x2048 .f32) (x1 : Vec F S2048x2048 .f32) (y : S4x2048.Idx) :
    ∃ pc ∈ (kernelRun_First c i arg2 harg2 arg3 harg3 arg4 harg4 arg5 harg5 hc0 hc1 x0 x1).1, y ∈ pc.1.set :=
  View.cover_of_tiledL (kernelRun_First c i arg2 harg2 arg3 harg3 arg4 harg4 arg5 harg5 hc0 hc1 x0 x1).1 S4x2048.size (by sl_kernel_rfl) y

/-- The accumulator after the body at k = 0. -/
def acc_First (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : cond0_0 i) (hc1 : ¬cond0_1 i)
    (x0 : Vec F S4x2048 .f32) (x1 : Vec F S2048x2048 .f32) : Vec F S4x2048 .f32 :=
  VS0_0.read (Elt F) (VS0_0.writes (Elt F) VS0_0.junk (kernelRun_First c i arg2 harg2 arg3 harg3 arg4 harg4 arg5 harg5 hc0 hc1 x0 x1).1)

theorem scover_Middle (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : ¬cond0_1 i)
    (x0 : Vec F S4x2048 .f32) (x1 : Vec F S2048x2048 .f32) (xs0 : Vec F S4x2048 .f32) (y : S4x2048.Idx) :
    ∃ pc ∈ (kernelRun_Middle c i arg2 harg2 arg3 harg3 arg4 harg4 arg5 harg5 hc0 hc1 x0 x1 xs0).1, y ∈ pc.1.set :=
  View.cover_of_tiledL (kernelRun_Middle c i arg2 harg2 arg3 harg3 arg4 harg4 arg5 harg5 hc0 hc1 x0 x1 xs0).1 S4x2048.size (by sl_kernel_rfl) y

/-- The accumulator after the body at 0 < k < 3, from what the point before left (`xs0`). -/
def acc_Middle (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : ¬cond0_1 i)
    (x0 : Vec F S4x2048 .f32) (x1 : Vec F S2048x2048 .f32) (xs0 : Vec F S4x2048 .f32) : Vec F S4x2048 .f32 :=
  VS0_0.read (Elt F) (VS0_0.writes (Elt F) VS0_0.junk (kernelRun_Middle c i arg2 harg2 arg3 harg3 arg4 harg4 arg5 harg5 hc0 hc1 x0 x1 xs0).1)

theorem cover_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) (y : S4x2048.Idx) :
    ∃ pc ∈ (kernelRun_Last c i arg2 harg2 arg3 harg3 arg4 harg4 arg5 harg5 hc0 hc1 x0 x1 xs0).1, y ∈ pc.1.set :=
  View.cover_of_tiledL (kernelRun_Last c i arg2 harg2 arg3 harg3 arg4 harg4 arg5 harg5 hc0 hc1 x0 x1 xs0).1 S4x2048.size (by sl_kernel_rfl) y

/-- The output window's buffer after the body at k = 3. -/
def out_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) : Vec F S4x2048 .f32 :=
  VO0_2.read (Elt F) (VO0_2.writes (Elt F) VO0_2.junk (kernelRun_Last c i arg2 harg2 arg3 harg3 arg4 harg4 arg5 harg5 hc0 hc1 x0 x1 xs0).1)

theorem scover_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) (y : S4x2048.Idx) :
    ∃ pc ∈ (kernelRun_Last c i arg2 harg2 arg3 harg3 arg4 harg4 arg5 harg5 hc0 hc1 x0 x1 xs0).2.1, y ∈ pc.1.set :=
  View.cover_of_tiledL (kernelRun_Last c i arg2 harg2 arg3 harg3 arg4 harg4 arg5 harg5 hc0 hc1 x0 x1 xs0).2.1 S4x2048.size (by sl_kernel_rfl) y

/-- The accumulator after the body at k = 3. -/
def acc_Last (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) : Vec F S4x2048 .f32 :=
  VS0_0.read (Elt F) (VS0_0.writes (Elt F) VS0_0.junk (kernelRun_Last c i arg2 harg2 arg3 harg3 arg4 harg4 arg5 harg5 hc0 hc1 x0 x1 xs0).2.1)

/-! ## The accumulator position by position -/

/-- The accumulator after the body at position `n`. -/
def acc (c : Dev nD) : (n : ℕ) → n < cfg0.N → Vec F S4x2048 .f32
  | 0, hn => acc_First c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 4 = 0 then
      acc_First c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩)
    else
      if h1 : (n + 1) % 4 = 3 then
        acc_Last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (acc c n (Nat.lt_of_succ_lt hn))
      else
        acc_Middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (acc c n (Nat.lt_of_succ_lt hn))

/-- The accumulator the body finds at a position that is not the first: what the position before left. -/
abbrev accPrev (c : Dev nD) (t : Fin cfg0.N) : Vec F S4x2048 .f32 :=
  acc m c (t.val - 1) (Nat.lt_of_le_of_lt (Nat.sub_le _ _) t.isLt)

theorem acc_at_First (c : Dev nD) (t : Fin cfg0.N) (h0 : t.val % 4 = 0) (h1 : ¬t.val % 4 = 3) :
    acc m c t.val t.isLt = acc_First c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) := by
  obtain ⟨n, hn⟩ := t
  cases n with
  | zero => exact rfl
  | succ n => exact (dif_pos h0).trans rfl

theorem acc_at_Middle (c : Dev nD) (t : Fin cfg0.N) (h0 : ¬t.val % 4 = 0) (h1 : ¬t.val % 4 = 3) :
    acc m c t.val t.isLt = acc_Middle c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (accPrev m c t) := by
  obtain ⟨n, hn⟩ := t
  cases n with
  | zero => exact (by exfalso; (try dsimp only at h0); exact absurd (Nat.zero_mod _) h0)
  | succ n => exact (dif_neg h0).trans ((dif_neg h1).trans rfl)

theorem acc_at_Last (c : Dev nD) (t : Fin cfg0.N) (h0 : ¬t.val % 4 = 0) (h1 : t.val % 4 = 3) :
    acc m c t.val t.isLt = acc_Last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (accPrev m c t) := by
  obtain ⟨n, hn⟩ := t
  cases n with
  | zero => exact (by exfalso; (try dsimp only at h0); exact absurd (Nat.zero_mod _) h0)
  | succ n => exact (dif_neg h0).trans ((dif_pos h1).trans rfl)

/-- The output window's buffer after the body at position `t`: stored at k = 3 only (elsewhere the window is idle and
    nothing consults this value). -/
def outAt (c : Dev nD) (t : Fin cfg0.N) : Vec F S4x2048 .f32 :=
  if h1 : t.val % 4 = 3 then
    out_Last c (grid0.coords t) (ms0_0 t) (hs0_0 t) (ms0_1 t) (hs0_1 t) (ms0_2 t) (hs0_2 t) scM0_0 (Memref.isWhole_whole _) (fun h => (by omega : ¬t.val % 4 = 0) ((hcond0_0 t).mp h)) ((hcond0_1 t).mpr h1) (iblk m c 0 t) (iblk m c 1 t) (accPrev m c t)
  else VO0_2.read (Elt F) VO0_2.junk

theorem outAt_Last (c : Dev nD) (t : Fin cfg0.N) (h0 : ¬t.val % 4 = 0) (h1 : t.val % 4 = 3) :
    outAt m c t = out_Last c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (accPrev m c t) := by
  unfold outAt; rw [dif_pos h1]

/-! ## The region's invariant -/

/-- Before the first point: every scoped buffer at anything. Afterwards: the accumulator at what the point before left. -/
def PhiS (c : Dev nD) : (n : ℕ) → n ≤ cfg0.N → sProp 𝕄
  | 0, _ => Pipeline.ΦA spec0 c
  | n + 1, hn => iprop(iprop(owns (c : Thread nD τ) scM0_0 fullShare (acc m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (acc m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (acc m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: a case split on k; the inputs' buffers hold their blocks, the invariant hands the body the
    accumulator at what the point before left (at anything at the very first point) and takes it back at this point's
    contents; the output window's buffer is handed back untouched before k = 3 and with the accumulator's contents at k = 3. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 4 = 0
  · have h1 : ¬t.val % 4 = 3 := by omega
    rw [Dat.leavesExact_idle (dats m 0 c) 2 t (idleAt0_2 t (fun h => h1 ((hcond0_1 t).mp h))) (noFlush0_2 t (fun h => h1 ((hcond0_1 t).mp h)))]
    rw [acc_at_First m c t h0 h1]
    unfold acc_First; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩⟩
      iapply ((kernelRun_First c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover_First c _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((kernelRun_First c (grid0.coords t) _ _ _ _ _ _ _ _ ((hcond0_0 t).mpr h0) (fun h => h1 ((hcond0_1 t).mp h)) (iblk m c 0 t) (iblk m c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover_First c _ _ _ _ _ _ _ _ _ _ _ _ _)
        iexact Hg
      isplitl [Ho]; · iexact Ho
      isplitl [H0]; · iexact H0
      isplitl [H1]; · iexact H1
      iexists _; iexact H2
  · by_cases h1 : t.val % 4 = 3
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outAt_Last m c t h0 h1, acc_at_Last m c t h0 h1]
      unfold out_Last acc_Last; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩⟩
        iapply ((kernelRun_Last c (grid0.coords t) _ _ _ _ _ _ _ _ (fun h => h0 ((hcond0_0 t).mp h)) ((hcond0_1 t).mpr h1) (iblk m c 0 t) (iblk m c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover_Last c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_Last c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [acc_at_Middle m c t h0 h1]
      unfold acc_Middle; (try dsimp only)
      have hz : t.val ≠ 0 := by omega
      · rw [PhiS_castSucc m c t, PhiS_pos m c _ _ hz]
        iintro ⟨⟨HS0, Hg⟩, Ho, ⟨%d0, H0⟩, ⟨%d1, H1⟩, ⟨%d2, H2⟩⟩
        iapply ((kernelRun_Middle c (grid0.coords t) _ _ _ _ _ _ _ _ (fun h => h0 ((hcond0_0 t).mp h)) (fun h => h1 ((hcond0_1 t).mp h)) (iblk m c 0 t) (iblk m c 1 t) _).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover_Middle c _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxHeartbeats 40000000 in
set_option backward.isDefEq.respectTransparency.types false in
/-- Every weakly fair execution of @main terminates; at the end every array of the pipeline holds what the library
    computes from the proof data and every other unscoped buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame of `KernelIdeal` at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Acc

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.Ideal.Product.lean ====
/-
  One contraction block's contribution, read at an entry of the exact instance.
  The body's stored value at a grid point is (accumulator found) + (row block · block of the right factor): at
  entry (r, q) of the 4 × 2048 accumulator, acc(r, q) + Σ_{j < 2048} a(r, j) · b(j, q). The change of format on the
  way into the matrix unit is the identity on extended reals, and the product into a zero accumulator is the plain
  sum of products. The value the accumulator is cleared to at contraction block 0 is the real number 0.
-/
import proofs.«149369_j84310208020843_2_alg».proof.Proof.Gen.KernelIdeal.Skeleton
import proofs.«149369_j84310208020843_2_alg».proof.Proof.LibMatmul2d
import Idealize.ShloMosaic.Lib.ValueIdx
import Idealize.ShloMosaic.Lib.Pipeline.Value
import Idealize.ShloMosaic.PureOps.Ideal.Laws

noncomputable section

namespace Cert.KernelIdeal.Acc

open Cert.KernelIdeal Cert.KernelIdeal.Gen
open Idealize.ShloMosaic Idealize.ShloMosaic.ValueIdx
open scoped BigOperators

/-- The cleared accumulator holds the real 0 at every entry. -/
theorem cleared_apply (y : S4x2048.Idx) : k0_pay1 (F := Ideal) y = 0 := by
  unfold k0_pay1
  rw [shapeCast_self]
  exact Ideal.ofBits_zero_f32

/-- The stored value at entry (r, q): the accumulator found there plus the block's sum of products. -/
theorem step_apply (v3 : Vec Ideal S4x2048 .f32) (v5 : Vec Ideal S2048x2048 .f32) (v7 : Vec Ideal S4x2048 .f32)
    (r : Fin 4) (q : Fin 2048) :
    k0_pay2 (F := Ideal) v3 v5 v7 (ix2 r q) = v7 (ix2 r q) + ∑ j : Fin 2048, v3 (ix2 r j) * v5 (ix2 j q) := by
  unfold k0_pay2
  rw [shapeCast_self]
  refine (addf_apply _ _ _).trans ?_
  refine congrArg (fun z => v7 (ix2 r q) + z) ?_
  rw [show dot_S4x2048_S2048x2048_S4x2048_1_0_0_1_n_n = DotDims.plain 4 2048 2048 from rfl]
  exact Cert.LibMatmul2d.matmul_plain_apply (M := 4) (K := 2048) (N := 2048) _ _ r q

end Cert.KernelIdeal.Acc

end
-- ==== Proof.LibBlockSum.lean ====
/-
  A finite sum over n·B consecutive indices, taken block by block.

  A contraction over a long axis is often computed in pieces: the axis is cut into n blocks of B entries, each block
  is summed by itself, and the partial sums are added up one after another. In a commutative monoid the order and
  the grouping of a finite sum do not matter, so the partial sums add up to the whole sum. Nothing is asked of the
  entries (no finiteness, no ring laws): the statement holds in any additive commutative monoid, the extended reals
  included.
-/
import Mathlib.Algebra.BigOperators.Fin
import Mathlib.Algebra.BigOperators.Ring.Finset
import Mathlib.Logic.Equiv.Fin.Basic

namespace Cert.LibBlockSum

open scoped BigOperators

variable {β : Type*} [AddCommMonoid β]

/-- The position, among n·B consecutive indices, of entry `r` of block `s`: `s·B + r`. -/
def blockIdx {n B : ℕ} (s : Fin n) (r : Fin B) : Fin (n * B) := finProdFinEquiv (s, r)

theorem blockIdx_val {n B : ℕ} (s : Fin n) (r : Fin B) : (blockIdx s r).val = r.val + B * s.val := rfl

/-- A sum over n·B indices is the sum, over the n blocks, of each block's B entries. -/
theorem sum_eq_sum_blocks (n B : ℕ) (g : Fin (n * B) → β) :
    ∑ k : Fin (n * B), g k = ∑ s : Fin n, ∑ r : Fin B, g (blockIdx s r) := by
  rw [← Equiv.sum_comp finProdFinEquiv g, Fintype.sum_prod_type]
  rfl

/-- The same with the blocks counted by the naturals below n (the form a fold over consecutive steps leaves):
    if `f s` is block `s`'s partial sum for every `s < n`, the partial sums add up to the whole sum. -/
theorem sum_range_blocks (n B : ℕ) (g : Fin (n * B) → β) (f : ℕ → β)
    (hf : ∀ s : Fin n, f s.val = ∑ r : Fin B, g (blockIdx s r)) :
    ∑ s ∈ Finset.range n, f s = ∑ k : Fin (n * B), g k := by
  rw [Finset.sum_range, sum_eq_sum_blocks]
  exact Finset.sum_congr rfl fun s _ => hf s

end Cert.LibBlockSum
-- ==== Proof.Ideal.Contraction.lean ====
/-
  The region's result array is the whole matrix product.
  At grid position t = 4·n + k the row-block window holds columns [2048·k, 2048·k + 2048) of the left factor, the right
  factor's window rows [2048·k, …) and columns [2048·n, …), and the output window columns [2048·n, …) of the result.
  By induction on the position, the accumulator after position 4·n + k holds, at (r, q), the partial sum over the first
  k + 1 contraction blocks of Σ_j a(r, j) · b(j, 2048·n + q); sums over the extended reals may be regrouped freely, so at
  k = 3 this is the whole contraction Σ_{j < 8192}, and that is what is written back to block n of the result.
-/
import proofs.«149369_j84310208020843_2_alg».proof.Proof.Ideal.Accumulate
import proofs.«149369_j84310208020843_2_alg».proof.Proof.Ideal.Product
import proofs.«149369_j84310208020843_2_alg».proof.Proof.LibBlockSum

set_option maxRecDepth 16384

noncomputable section

namespace Cert.KernelIdeal.Acc

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

variable (m : (ℓ : Loc nD τ sig) → Buf (Elt Ideal) ℓ) (ρ : Dev nD → PrngReg)

/-! ## What the stores leave is the stored value -/

theorem hz : (![0, 0] : Fin 2 → Nat) = fun _ => 0 := funext fun a => by fin_cases a <;> rfl

theorem acc_First_eq {F : FTy → Type} [FloatOps F] (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : cond0_0 i) (hc1 : ¬cond0_1 i)
    (x0 : Vec F S4x2048 .f32) (x1 : Vec F S2048x2048 .f32) :
    acc_First c i arg2 harg2 arg3 harg3 arg4 harg4 arg5 harg5 hc0 hc1 x0 x1 = k0_pay2 x0 x1 k0_pay1 := by
  unfold acc_First
  rw [View.read_writes_eq_canon _ _ _ (scover_First c i arg2 harg2 arg3 harg3 arg4 harg4 arg5 harg5 hc0 hc1 x0 x1)]
  unfold kernelRun_First
  dsimp only
  sl_unfold_words
  rw [View.canon_cons_unit_zero hz]
  rw [View.readCov_unit_zero _ hz]
  simp only [View.readAt_eq_ld, harg2.read_unread, harg3.read_unread, View.ld_unit_zero (S := S4x2048) hz, View.ld_unit_zero (S := S2048x2048) hz]

theorem acc_Middle_eq {F : FTy → Type} [FloatOps F] (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : ¬cond0_1 i)
    (x0 : Vec F S4x2048 .f32) (x1 : Vec F S2048x2048 .f32) (xs0 : Vec F S4x2048 .f32) :
    acc_Middle c i arg2 harg2 arg3 harg3 arg4 harg4 arg5 harg5 hc0 hc1 x0 x1 xs0 = k0_pay2 x0 x1 xs0 := by
  unfold acc_Middle
  rw [View.read_writes_eq_canon _ _ _ (scover_Middle c i arg2 harg2 arg3 harg3 arg4 harg4 arg5 harg5 hc0 hc1 x0 x1 xs0)]
  unfold kernelRun_Middle
  dsimp only
  sl_unfold_words
  rw [View.canon_unit_zero hz]
  simp only [View.readAt_eq_ld, harg2.read_unread, harg3.read_unread, harg5.read_unread, View.ld_unit_zero (S := S4x2048) hz, View.ld_unit_zero (S := S2048x2048) hz]

theorem acc_Last_eq {F : FTy → Type} [FloatOps F] (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) :
    acc_Last c i arg2 harg2 arg3 harg3 arg4 harg4 arg5 harg5 hc0 hc1 x0 x1 xs0 = k0_pay2 x0 x1 xs0 := by
  unfold acc_Last
  rw [View.read_writes_eq_canon _ _ _ (scover_Last c i arg2 harg2 arg3 harg3 arg4 harg4 arg5 harg5 hc0 hc1 x0 x1 xs0)]
  unfold kernelRun_Last
  dsimp only
  sl_unfold_words
  rw [View.canon_unit_zero hz]
  simp only [View.readAt_eq_ld, harg2.read_unread, harg3.read_unread, harg5.read_unread, View.ld_unit_zero (S := S4x2048) hz, View.ld_unit_zero (S := S2048x2048) hz]

theorem out_Last_eq {F : FTy → Type} [FloatOps F] (c : Dev nD) (i : grid0.Coords) (arg2 : Memref sig .tc .vmem S4x2048 .f32) (harg2 : arg2.IsWhole) (arg3 : Memref sig .tc .vmem S2048x2048 .f32) (harg3 : arg3.IsWhole) (arg4 : Memref sig .tc .vmem S4x2048 .f32) (harg4 : arg4.IsWhole) (arg5 : Memref sig .tc .vmem S4x2048 .f32) (harg5 : arg5.IsWhole) (hc0 : ¬cond0_0 i) (hc1 : cond0_1 i)
    (x0 : Vec F S4x2048 .f32) (x1 : Vec F S2048x2048 .f32) (xs0 : Vec F S4x2048 .f32) :
    out_Last c i arg2 harg2 arg3 harg3 arg4 harg4 arg5 harg5 hc0 hc1 x0 x1 xs0 = k0_pay2 x0 x1 xs0 := by
  unfold out_Last
  rw [View.read_writes_eq_canon _ _ _ (cover_Last c i arg2 harg2 arg3 harg3 arg4 harg4 arg5 harg5 hc0 hc1 x0 x1 xs0)]
  unfold kernelRun_Last
  dsimp only
  sl_unfold_words
  rw [View.canon_unit_zero hz]
  rw [View.readCov_unit_zero _ hz]
  simp only [View.readAt_eq_ld, harg2.read_unread, harg3.read_unread, harg5.read_unread, View.ld_unit_zero (S := S4x2048) hz, View.ld_unit_zero (S := S2048x2048) hz]

/-! ## The windows' blocks by coordinates -/

/-- The printed index maps over the grid: the row block sits at (0, k), the right factor's block at (k, n), the output's at (0, n). -/
theorem idx_facts : ∀ t : Fin cfg0.N, win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = 0 ∧ win0_2.index t (1 : Fin 2) = t.val / 4 :=
  (by decide +kernel : ∀ t : Fin grid0.N, _)

/-- The two float arguments as the region finds them, and the two input windows' blocks at a position, as arrays of extended reals. -/
abbrev Aarr (c : Dev nD) : S4x8192.Idx → EReal := V m c main_arg0
abbrev Barr (c : Dev nD) : S8192x8192.Idx → EReal := V m c main_arg2
abbrev rowBlock (c : Dev nD) (t : Fin cfg0.N) : Vec Ideal S4x2048 .f32 := iblk m c 0 t
abbrev colBlock (c : Dev nD) (t : Fin cfg0.N) : Vec Ideal S2048x2048 .f32 := iblk m c 1 t

/-- An entry of a block of the row-block window: row r, column 2048·k + j of the left factor (k = t mod 4). -/
theorem rowblock_apply (c : Dev nD) (t : Fin cfg0.N) (r : Fin 4) (j : Fin 2048) (hb : 2048 * (t.val % 4) + j.val < 8192) :
    rowBlock m c t (ix2 r j) = Aarr m c (ix2 r ⟨2048 * (t.val % 4) + j.val, hb⟩) := by
  obtain ⟨e0, e1, -, -, -, -⟩ := idx_facts t
  show Aarr m c (((cfg0.win 0).blk t).view.emb (ix2 r j)) = _
  refine congrArg _ (funext fun a => Fin.ext ?_)
  match a with
  | ⟨0, _⟩ => show win0_0.index t (0 : Fin 2) * 4 + 1 * r.val = r.val; omega
  | ⟨1, _⟩ => show win0_0.index t (1 : Fin 2) * 2048 + 1 * j.val = 2048 * (t.val % 4) + j.val; omega

/-- An entry of a block of the right factor's window: row 2048·k + j, column 2048·n + q (k = t mod 4, n = t div 4). -/
theorem colblock_apply (c : Dev nD) (t : Fin cfg0.N) (j q : Fin 2048) (hb : 2048 * (t.val % 4) + j.val < 8192)
    (hq : 2048 * (t.val / 4) + q.val < 8192) :
    colBlock m c t (ix2 j q) = Barr m c (ix2 ⟨2048 * (t.val % 4) + j.val, hb⟩ ⟨2048 * (t.val / 4) + q.val, hq⟩) := by
  obtain ⟨-, -, e2, e3, -, -⟩ := idx_facts t
  show Barr m c (((cfg0.win 1).blk t).view.emb (ix2 j q)) = _
  refine congrArg _ (funext fun a => Fin.ext ?_)
  match a with
  | ⟨0, _⟩ => show win0_1.index t (0 : Fin 2) * 2048 + 1 * j.val = 2048 * (t.val % 4) + j.val; omega
  | ⟨1, _⟩ => show win0_1.index t (1 : Fin 2) * 2048 + 1 * q.val = 2048 * (t.val / 4) + q.val; omega

/-! ## The partial sums -/

/-- Contraction block `b`'s share of entry (r, col) of the product of `A` (4 × 8192) and `B` (8192 × 8192). -/
def blockShare (A : S4x8192.Idx → EReal) (B : S8192x8192.Idx → EReal) (r : Fin 4) (col : Fin 8192) (b : Fin 4) : EReal :=
  ∑ j : Fin 2048, A (ix2 r (Cert.LibBlockSum.blockIdx (n := 4) (B := 2048) b j)) * B (ix2 (Cert.LibBlockSum.blockIdx (n := 4) (B := 2048) b j) col)

/-- The same with the output's column block `nn` and the contraction block `b` as natural numbers (zero out of range). -/
def share (A : S4x8192.Idx → EReal) (B : S8192x8192.Idx → EReal) (nn : ℕ) (r : Fin 4) (q : Fin 2048) (b : ℕ) : EReal :=
  if h : b < 4 ∧ nn < 4 then blockShare A B r ⟨2048 * nn + q.val, by omega⟩ ⟨b, h.1⟩ else 0

/-- The block product the body adds at position `t` is contraction block (t mod 4)'s share of column block (t div 4). -/
theorem product_at (c : Dev nD) (t : Fin cfg0.N) (r : Fin 4) (q : Fin 2048) :
    (∑ j : Fin 2048, rowBlock m c t (ix2 r j) * colBlock m c t (ix2 j q))
      = share (Aarr m c) (Barr m c) (t.val / 4) r q (t.val % 4) := by
  have hN : t.val < 16 := lt_of_lt_of_eq t.isLt (show cfg0.N = 16 from N_0)
  unfold share
  rw [dif_pos ⟨by omega, by omega⟩]
  unfold blockShare
  refine Finset.sum_congr rfl fun j _ => ?_
  have hj : j.val < 2048 := j.isLt
  have hqq : q.val < 2048 := q.isLt
  rw [rowblock_apply m c t r j (by omega), colblock_apply m c t j q (by omega) (by omega)]
  have e : (⟨2048 * (t.val % 4) + j.val, by omega⟩ : Fin 8192) = Cert.LibBlockSum.blockIdx (n := 4) (B := 2048) ⟨t.val % 4, by omega⟩ j :=
    Fin.ext (by rw [Cert.LibBlockSum.blockIdx_val]; show 2048 * (t.val % 4) + j.val = j.val + 2048 * (t.val % 4); omega)
  rw [e]

/-- One position of the accumulation, at an entry: what the position before left (nothing at contraction block 0) plus
    this position's share. -/
theorem acc_step (c : Dev nD) (t : Fin cfg0.N) (r : Fin 4) (q : Fin 2048) :
    acc m c t.val t.isLt (ix2 r q)
      = (if t.val % 4 = 0 then 0 else accPrev m c t (ix2 r q)) + share (Aarr m c) (Barr m c) (t.val / 4) r q (t.val % 4) := by
  rw [← product_at m c t r q]
  by_cases h0 : t.val % 4 = 0
  · have h1 : ¬t.val % 4 = 3 := by omega
    rw [if_pos h0, acc_at_First m c t h0 h1, acc_First_eq]
    refine (step_apply _ _ _ r q).trans ?_
    rw [cleared_apply]
  · rw [if_neg h0]
    by_cases h1 : t.val % 4 = 3
    · rw [acc_at_Last m c t h0 h1, acc_Last_eq]
      exact step_apply _ _ _ r q
    · rw [acc_at_Middle m c t h0 h1, acc_Middle_eq]
      exact step_apply _ _ _ r q

/-- The accumulator after position n holds the sum of the shares of the contraction blocks 0 … n mod 4. -/
theorem acc_partial (c : Dev nD) (r : Fin 4) (q : Fin 2048) : ∀ (n : ℕ) (hn : n < cfg0.N),
    acc m c n hn (ix2 r q) = ∑ b ∈ Finset.range (n % 4 + 1), share (Aarr m c) (Barr m c) (n / 4) r q b := by
  intro n
  induction n with
  | zero =>
    intro hn
    have h := acc_step m c ⟨0, hn⟩ r q
    rw [if_pos (by rfl)] at h
    rw [h, zero_add]
    show share _ _ (0 / 4) r q (0 % 4) = ∑ b ∈ Finset.range 1, share _ _ (0 / 4) r q b
    rw [Finset.sum_range_one]
  | succ n ih =>
    intro hn
    have h := acc_step m c ⟨n + 1, hn⟩ r q
    by_cases h0 : (n + 1) % 4 = 0
    · rw [if_pos h0] at h
      rw [h, zero_add]
      show _ = ∑ b ∈ Finset.range ((n + 1) % 4 + 1), _
      rw [h0, Finset.sum_range_one]
    · rw [if_neg h0] at h
      have hprev : accPrev m c ⟨n + 1, hn⟩ (ix2 r q) = ∑ b ∈ Finset.range (n % 4 + 1), share (Aarr m c) (Barr m c) (n / 4) r q b :=
        ih (Nat.lt_of_succ_lt hn)
      rw [h, hprev]
      show _ + share _ _ ((n + 1) / 4) r q ((n + 1) % 4) = ∑ b ∈ Finset.range ((n + 1) % 4 + 1), share _ _ ((n + 1) / 4) r q b
      have e1 : (n + 1) / 4 = n / 4 := by omega
      have e2 : (n + 1) % 4 = n % 4 + 1 := by omega
      rw [e1, e2]
      exact (Finset.sum_range_succ _ _).symm

/-! ## The result array -/

/-- The whole product at an entry: the contraction over all 8192 columns of the left factor. -/
def product (A : S4x8192.Idx → EReal) (B : S8192x8192.Idx → EReal) : S4x8192.Idx → EReal :=
  fun i => ∑ k : Fin 8192, A (ix2 (i 0) k) * B (ix2 k (i 1))

/-- At the last contraction block the accumulator holds the whole contraction for its column block. -/
theorem acc_whole (c : Dev nD) (t : Fin cfg0.N) (h1 : t.val % 4 = 3) (r : Fin 4) (q : Fin 2048) (hq : 2048 * (t.val / 4) + q.val < 8192) :
    acc m c t.val t.isLt (ix2 r q) = product (Aarr m c) (Barr m c) (ix2 r ⟨2048 * (t.val / 4) + q.val, hq⟩) := by
  have hN : t.val < 16 := lt_of_lt_of_eq t.isLt (show cfg0.N = 16 from N_0)
  rw [acc_partial m c r q t.val t.isLt, h1]
  unfold product
  refine Cert.LibBlockSum.sum_range_blocks 4 2048 (fun k => Aarr m c (ix2 r k) * Barr m c (ix2 k ⟨2048 * (t.val / 4) + q.val, hq⟩)) _ (fun s => ?_)
  have hs : s.val < 4 := s.isLt
  unfold share
  rw [dif_pos ⟨hs, by omega⟩]
  rfl

/-- What a writing-back position writes: block n of the product. -/
theorem flushed_eq (c : Dev nD) (t : Fin cfg0.N) (hf : (cfg0.win 2).flush t = true) :
    (dats m 0 c).flushed 2 t = ((cfg0.win 2).blk t).view.read (Elt Ideal) (product (Aarr m c) (Barr m c)) := by
  have h1 : t.val % 4 = 3 := (flush0_2 t).mp hf
  have h0 : ¬t.val % 4 = 0 := by omega
  have hN : t.val < 16 := lt_of_lt_of_eq t.isLt (show cfg0.N = 16 from N_0)
  obtain ⟨-, -, -, -, e4, e5⟩ := idx_facts t
  show (cfg0.win 2).cut (grid0.coords t) ((dats m 0 c).after 2 t) = _
  have hacc : acc m c t.val t.isLt = k0_pay2 (iblk m c 0 t) (iblk m c 1 t) (accPrev m c t) := by
    rw [acc_at_Last m c t h0 h1, acc_Last_eq]
  rw [after0_2, outAt_Last m c t h0 h1, out_Last_eq, ← hacc]
  funext y
  obtain ⟨r, q, rfl⟩ : ∃ (r : Fin 4) (q : Fin 2048), y = ix2 r q := ⟨y 0, y 1, eq_ix2 y⟩
  have hqq : q.val < 2048 := q.isLt
  show acc m c t.val t.isLt (ix2 r q) = product (Aarr m c) (Barr m c) (((cfg0.win 2).blk t).view.emb (ix2 r q))
  rw [acc_whole m c t h1 r q (by omega)]
  refine congrArg _ (funext fun a => Fin.ext ?_)
  match a with
  | ⟨0, _⟩ => show r.val = win0_2.index t (0 : Fin 2) * 4 + 1 * r.val; omega
  | ⟨1, _⟩ => show 2048 * (t.val / 4) + q.val = win0_2.index t (1 : Fin 2) * 2048 + 1 * q.val; omega

/-- An index of the result array is in position `t`'s block iff each coordinate is in the block's range on its axis. -/
theorem mem_blk (t : Fin cfg0.N) (i : S4x8192.Idx) :
    i ∈ ((cfg0.win 2).blk t).view.set ↔ ∀ a : Fin 2, win0_2.index t a * S4x2048.size a ≤ (i a).val ∧ (i a).val < win0_2.index t a * S4x2048.size a + S4x2048.size a := by
  show i ∈ ((View.whole main_call0_v0).slice (win0_2.rect t)).set ↔ _
  rw [View.set_slice_whole, Rect.mem_set_unit]
  exact Iff.rfl

/-- Every entry of the result lies in the block written back at the last contraction block of its column block. -/
theorem covered (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 16 := N_0
  refine ⟨⟨4 * ((i 1).val / 2048) + 3, by rw [hN]; omega⟩, (flush0_2 _).mpr (by show (4 * ((i 1).val / 2048) + 3) % 4 = 3; omega), ?_⟩
  obtain ⟨-, -, -, -, e4, e5⟩ := idx_facts ⟨4 * ((i 1).val / 2048) + 3, by rw [hN]; omega⟩
  rw [mem_blk]
  intro a
  match a with
  | ⟨0, _⟩ =>
    show win0_2.index _ (0 : Fin 2) * 4 ≤ (i 0).val ∧ (i 0).val < win0_2.index _ (0 : Fin 2) * 4 + 4
    rw [e4]; omega
  | ⟨1, _⟩ =>
    show win0_2.index _ (1 : Fin 2) * 2048 ≤ (i 1).val ∧ (i 1).val < win0_2.index _ (1 : Fin 2) * 2048 + 2048
    rw [e5]; show (4 * ((i 1).val / 2048) + 3) / 4 * 2048 ≤ (i 1).val ∧ (i 1).val < (4 * ((i 1).val / 2048) + 3) / 4 * 2048 + 2048; omega

/-- THE RESULT ARRAY after the region: the matrix product of the two float arguments. -/
theorem final (c : Dev nD) : (dats m 0 c).arrAt 2 cfg0.N = product (Aarr m c) (Barr m c) :=
  (dats m 0 c).arrAt_eq_of_cover 2 _ (fun t hf => flushed_eq m c t hf) covered

end Cert.KernelIdeal.Acc

end
-- ==== Proof.Corner.lean ====
/-
  Distances among the last three rows are a corner of the distances among all four.
  For a matrix X with rows x₀ … x₃, the reference forms the 4 × 4 matrix of Euclidean distances between rows (zero where
  the squared distance is not positive), passes it through the leaky rectifier, and separately does the same for the
  three rows x₁, x₂, x₃. Entry (p, q) of the 3 × 3 matrix is entry (p + 1, q + 1) of the 4 × 4 one: both are the same
  pointwise function of the squared distance Σ_k (x_{p+1}(k) − x_{q+1}(k))², the very same finite sum.
-/
import proofs.«149369_j84310208020843_2_alg».proof.Proof.RefRead

noncomputable section

namespace Cert.ReferenceIdeal.Corner

open Cert.ReferenceIdeal Cert.ReferenceIdeal.ReadP
open Idealize.ShloMosaic Idealize.ShloMosaic.ValueIdx
open scoped BigOperators

variable (x0 : (⟨S4x8192, .f32⟩ : BufTy).Contents (Elt Ideal)) (x2 : (⟨S8192x8192, .f32⟩ : BufTy).Contents (Elt Ideal))

/-- The squared distance between rows p + 1 and q + 1 of the four is the squared distance between rows p and q of the
    last three: term by term the same sum over the 8192 columns. -/
theorem sq_corner (p q : Fin 3) :
    val_main_v7 (F := Ideal) x0 x2 (ix2 (⟨p.val + 1, by omega⟩ : Fin 4) (⟨q.val + 1, by omega⟩ : Fin 4))
      = val_main_v23 (F := Ideal) x0 x2 (ix2 p q) := by
  rw [val_main_v7_apply, val_main_v23_apply]
  refine congrArg₂ (· + ·) rfl (Finset.sum_congr rfl fun k _ => ?_)
  simp only [val_main_v6_apply, val_main_v5_apply, val_main_v3_apply, val_main_v4_apply, val_main_v1_apply, val_main_v2_apply,
    val_main_v22_apply, val_main_v21_apply, val_main_v19_apply, val_main_v20_apply, val_main_v17_apply, val_main_v18_apply,
    val_main_v15_apply, val_main_v16_apply]
  have e1 : idx_main_v1 (idx_main_v3 (idx_main_v7 (ix2 (⟨p.val + 1, by omega⟩ : Fin 4) (⟨q.val + 1, by omega⟩ : Fin 4)) k))
      = idx_main_v15 (idx_main_v17 (idx_main_v19 (idx_main_v23 (ix2 p q) k))) :=
    funext fun a => Fin.ext (by
      match a with
      | ⟨0, _⟩ => show p.val + 1 = 1 + p.val; omega
      | ⟨1, _⟩ => rfl)
  have e2 : idx_main_v2 (idx_main_v4 (idx_main_v7 (ix2 (⟨p.val + 1, by omega⟩ : Fin 4) (⟨q.val + 1, by omega⟩ : Fin 4)) k))
      = idx_main_v16 (idx_main_v18 (idx_main_v20 (idx_main_v23 (ix2 p q) k))) :=
    funext fun a => Fin.ext (by
      match a with
      | ⟨0, _⟩ => show q.val + 1 = 1 + q.val; omega
      | ⟨1, _⟩ => rfl)
  rw [e1, e2]

/-- The rectified distance matrix of the last three rows is the lower-right 3 × 3 corner of that of all four. -/
theorem corner (h : S4x4.Slices ![1, 1] S3x3) :
    extractStridedSlice S3x3 ![1, 1] (val_main_v35 (F := Ideal) x0 x2) h = val_main_v40 (F := Ideal) x0 x2 := by
  funext i
  obtain ⟨p, q, rfl⟩ : ∃ (p q : Fin 3), i = ix2 p q := ⟨i 0, i 1, eq_ix2 i⟩
  rw [extractStridedSlice_apply ![1, 1] _ h (ix2 p q) (ix2 (⟨p.val + 1, by omega⟩ : Fin 4) (⟨q.val + 1, by omega⟩ : Fin 4))
    (fun a => by
      match a with
      | ⟨0, _⟩ => show p.val + 1 = 1 + p.val; omega
      | ⟨1, _⟩ => show q.val + 1 = 1 + q.val; omega)]
  simp only [val_main_v8_apply, val_main_v9_apply, val_main_v10_apply, val_main_v11_apply, val_main_v12_apply, val_main_v13_apply, val_main_v14_apply, val_main_v31_apply, val_main_v32_apply, val_main_v33_apply, val_main_v34_apply, val_main_v35_apply, val_main_cst_0_apply, val_main_cst_1_apply, val_main_cst_2_apply, val_main_cst_3_apply, val_main_cst_9_apply, val_main_cst_10_apply, val_main_call0_v0_apply, val_main_call0_v1_apply, val_main_call1_v0_apply, val_main_call1_v1_apply, val_main_v24_apply, val_main_v25_apply, val_main_v26_apply, val_main_v27_apply, val_main_v28_apply, val_main_v29_apply, val_main_v30_apply, val_main_v36_apply, val_main_v37_apply, val_main_v38_apply, val_main_v39_apply, val_main_v40_apply, val_main_cst_5_apply, val_main_cst_6_apply, val_main_cst_7_apply, val_main_cst_8_apply, val_main_cst_11_apply, val_main_cst_12_apply, val_main_call2_v0_apply, val_main_call2_v1_apply, val_main_call3_v0_apply, val_main_call3_v1_apply]
  rw [sq_corner x0 x2 p q]

end Cert.ReferenceIdeal.Corner

end
-- ==== Proof.LibTypedRead.lean ====
/-
  Reading a valuation at a typed reference, with no transport left behind.

  A host operation of a module-local function names its operands and its result by typed references: a buffer together
  with the value type its contents have. The operation's function works on values of those types, and the buffer's own
  contents type is reached by a transport along the equation between the two (the identity, once the types are
  computed). Reading the result of a line of such operations buffer by buffer leaves a pair of transports at every
  producer–consumer edge. Here the contents of a buffer are read AT THE VALUE TYPE (`get`): then every edge's pair is
  cancelled where it arises, by lemmas proved once for arbitrary typed references, and the terms that come out are the
  operations' functions applied to one another and nothing else.

      get y ((unary x y f).result V) = f (get x V)              get z ((unary x y f).result V) = get z V   (z ≠ y)

  and the same for operations of no, two and three operands and for a reshape. `get_after` reads a whole line.
-/
import Idealize.ShloMosaic.Lib.StableHlo.Run

noncomputable section

namespace Cert.LibTypedRead

open Idealize.ShloMosaic Idealize.ShloMosaic.StableHlo

variable {τ : Topo} {sig : RefSig} {Val : EltTy → Type}
variable {T Tx Ta Tb Tc Ty : BufTy}

/-- The contents of a typed reference's buffer, at the reference's value type. -/
def get (x : TRef sig T) (V : Valuation τ sig Val) : T.Contents Val :=
  x.ofBuf (V (Proc.devRef .tc x.ref))

/-- To the buffer's type and back is the identity … -/
theorem ofBuf_toBuf (x : TRef sig T) (v : T.Contents Val) : x.ofBuf (x.toBuf v) = v := by
  obtain ⟨r, h, hd, hu⟩ := x
  subst h
  rfl

/-- … and so is back and forth. -/
theorem toBuf_ofBuf (x : TRef sig T) (v : x.ref.ty.Contents Val) : x.toBuf (x.ofBuf v) = v := by
  obtain ⟨r, h, hd, hu⟩ := x
  subst h
  rfl

/-- A buffer's contents from its typed reading. -/
theorem eq_toBuf_of_get (x : TRef sig T) (V : Valuation τ sig Val) (v : T.Contents Val) (h : get x V = v) :
    V (Proc.devRef .tc x.ref) = x.toBuf v := by
  rw [← h]; exact (toBuf_ofBuf x _).symm

/-! ## The written buffer -/

theorem get_nullary (y : TRef sig Ty) (v : Ty.Contents Val) (V : Valuation τ sig Val) :
    get y ((TRef.nullary y v : HloOp τ sig Val).result V) = v := by
  unfold get TRef.nullary
  rw [nullary_result]
  exact ofBuf_toBuf y v

theorem get_unary (x : TRef sig Tx) (y : TRef sig Ty) (f : Tx.Contents Val → Ty.Contents Val) (V : Valuation τ sig Val) :
    get y ((TRef.unary x y f : HloOp τ sig Val).result V) = f (get x V) := by
  unfold get TRef.unary
  rw [unary_result]
  exact ofBuf_toBuf y _

theorem get_binary (a : TRef sig Ta) (b : TRef sig Tb) (y : TRef sig Ty)
    (f : Ta.Contents Val → Tb.Contents Val → Ty.Contents Val) (V : Valuation τ sig Val) :
    get y ((TRef.binary a b y f : HloOp τ sig Val).result V) = f (get a V) (get b V) := by
  unfold get TRef.binary
  rw [binary_result]
  exact ofBuf_toBuf y _

theorem get_ternary (c : TRef sig Tc) (a : TRef sig Ta) (b : TRef sig Tb) (y : TRef sig Ty)
    (f : Tc.Contents Val → Ta.Contents Val → Tb.Contents Val → Ty.Contents Val) (V : Valuation τ sig Val) :
    get y ((TRef.ternary c a b y f : HloOp τ sig Val).result V) = f (get c V) (get a V) (get b V) := by
  unfold get TRef.ternary
  rw [ternary_result]
  exact ofBuf_toBuf y _

theorem get_reshape (x : TRef sig Tx) (y : TRef sig Ty) (he : Tx.elt = Ty.elt) (hn : Tx.shape.ShapeCasts Ty.shape)
    (V : Valuation τ sig Val) :
    get y ((TRef.reshape x y he hn : HloOp τ sig Val).result V) = fun i => he ▸ shapeCast Ty.shape (get x V) hn i := by
  obtain ⟨xr, hx, hxd, hxu⟩ := x
  obtain ⟨yr, hy, hyd, hyu⟩ := y
  subst hx hy
  unfold get TRef.reshape
  rw [reshape_result]
  rfl

/-! ## Any other buffer -/

theorem get_nullary_ne (z : TRef sig T) (y : TRef sig Ty) (v : Ty.Contents Val) (V : Valuation τ sig Val) (h : z.ref ≠ y.ref) :
    get z ((TRef.nullary y v : HloOp τ sig Val).result V) = get z V := by
  unfold get TRef.nullary
  exact congrArg _ (nullary_result_ne _ _ _ _ h)

theorem get_unary_ne (z : TRef sig T) (x : TRef sig Tx) (y : TRef sig Ty) (f : Tx.Contents Val → Ty.Contents Val)
    (V : Valuation τ sig Val) (h : z.ref ≠ y.ref) :
    get z ((TRef.unary x y f : HloOp τ sig Val).result V) = get z V := by
  unfold get TRef.unary
  exact congrArg _ (unary_result_ne _ _ _ _ _ _ h)

theorem get_binary_ne (z : TRef sig T) (a : TRef sig Ta) (b : TRef sig Tb) (y : TRef sig Ty)
    (f : Ta.Contents Val → Tb.Contents Val → Ty.Contents Val) (V : Valuation τ sig Val) (h : z.ref ≠ y.ref) :
    get z ((TRef.binary a b y f : HloOp τ sig Val).result V) = get z V := by
  unfold get TRef.binary
  exact congrArg _ (binary_result_ne _ _ _ _ _ _ _ _ h)

theorem get_ternary_ne (z : TRef sig T) (c : TRef sig Tc) (a : TRef sig Ta) (b : TRef sig Tb) (y : TRef sig Ty)
    (f : Tc.Contents Val → Ta.Contents Val → Tb.Contents Val → Ty.Contents Val) (V : Valuation τ sig Val) (h : z.ref ≠ y.ref) :
    get z ((TRef.ternary c a b y f : HloOp τ sig Val).result V) = get z V := by
  unfold get TRef.ternary
  exact congrArg _ (ternary_result_ne _ _ _ _ _ _ _ _ _ _ h)

theorem get_reshape_ne (z : TRef sig T) (x : TRef sig Tx) (y : TRef sig Ty) (he : Tx.elt = Ty.elt)
    (hn : Tx.shape.ShapeCasts Ty.shape) (V : Valuation τ sig Val) (h : z.ref ≠ y.ref) :
    get z ((TRef.reshape x y he hn : HloOp τ sig Val).result V) = get z V := by
  unfold get TRef.reshape
  exact congrArg _ (reshape_result_ne _ _ _ _ _ _ _ h)

/-! ## A line of operations -/

theorem get_after_nil (z : TRef sig T) (V : Valuation τ sig Val) : get z (after [] V) = get z V := rfl

theorem get_after_cons (z : TRef sig T) (op : HloOp τ sig Val) (ops : List (HloOp τ sig Val)) (V : Valuation τ sig Val) :
    get z (after (op :: ops) V) = get z (after ops (op.result V)) := rfl

end Cert.LibTypedRead

end
-- ==== Proof.Ideal.Tail.lean ====
/-
  The host lines after the region, read over the region's result.
  The 122 lines are read in stretches. The first 31 form, from the region's result X (the matrix product), the 4 × 4
  rectified distance matrix of X's rows and cut its lower-right 3 × 3 corner; the next 90 read only X, these two
  matrices and the integer argument; the last joins the first row of X to the three rows they produce. The kernel takes
  the 3 × 3 matrix as a corner of the 4 × 4 one where the reference recomputes it from the last three rows: the two agree
  entry by entry (the same finite sums). From there on the two programs apply the same operations, so each of the
  kernel's four results is the reference's stage of the same name. Every buffer is read at its value type (LibTypedRead),
  so the terms compared are the operations' functions applied to one another and nothing else.
-/
import proofs.«149369_j84310208020843_2_alg».proof.Proof.Ideal.Contraction
import proofs.«149369_j84310208020843_2_alg».proof.Proof.Corner
import proofs.«149369_j84310208020843_2_alg».proof.Proof.LibTypedRead

set_option maxRecDepth 100000

noncomputable section

namespace Cert.KernelIdeal.Acc

open Cert.KernelIdeal Cert.KernelIdeal.Gen Cert.LibTypedRead
open Idealize.ShloMosaic Idealize.ShloMosaic.TcCoe Idealize.ShloMosaic.ValueIdx
open Idealize.SL Idealize.SL.Sem Idealize.ShloMosaic.StableHlo
open Idealize.ShloMosaic.Pipeline (Dat Cfg Window)
open scoped BigOperators

/-- The reference's argument arrays, as types. -/
abbrev RS4x8192 : Type := (⟨Cert.ReferenceIdeal.S4x8192, .f32⟩ : BufTy).Contents (Elt Ideal)
abbrev RS8192x8192 : Type := (⟨Cert.ReferenceIdeal.S8192x8192, .f32⟩ : BufTy).Contents (Elt Ideal)
abbrev RS3x3i : Type := (⟨Cert.ReferenceIdeal.S3x3, .i32⟩ : BufTy).Contents (Elt Ideal)

/-- Reads every buffer of a line of operations at its value type: the written buffer by the operation's function of its
    operands' readings, any other buffer by what was there (the references told apart by evaluation). -/
macro "typed_results" : tactic =>
  `(tactic| simp (disch := decide) only [after_cons, after_nil, get_nullary, get_unary, get_binary, get_ternary, get_reshape,
      get_nullary_ne, get_unary_ne, get_binary_ne, get_ternary_ne, get_reshape_ne])

/-- The product, entry by entry, is the reference's first stage (its `dot_general` of the two float arguments). -/
theorem product_eq (A : RS4x8192) (B : RS8192x8192) :
    product A B = Cert.ReferenceIdeal.ReadP.val_main_v0 (F := Ideal) A B := by
  funext i
  obtain ⟨r, q, rfl⟩ : ∃ (r : Fin 4) (q : Fin 8192), i = ix2 r q := ⟨i 0, i 1, eq_ix2 i⟩
  rw [Cert.ReferenceIdeal.ReadP.val_main_v0_apply]
  show ∑ k : Fin 8192, A (ix2 r k) * B (ix2 k q) = _
  refine Finset.sum_congr rfl fun k _ => ?_
  have el : ix2 r k = Cert.ReferenceIdeal.ReadP.lidx_main_v0 (ix2 r q) k :=
    funext fun a => Fin.ext (by match a with | ⟨0, _⟩ => rfl | ⟨1, _⟩ => rfl)
  have er : ix2 k q = Cert.ReferenceIdeal.ReadP.ridx_main_v0 (ix2 r q) k :=
    funext fun a => Fin.ext (by match a with | ⟨0, _⟩ => rfl | ⟨1, _⟩ => rfl)
  exact congrArg₂ (· * ·) (congrArg A el) (congrArg B er)

/-- Any list of host lines read in two stretches. -/
theorem after_cut (n : ℕ) (l : List (HloOp τ sig (Elt Ideal))) (V : Valuation τ sig (Elt Ideal)) :
    after l V = after (l.drop n) (after (l.take n) V) := by
  rw [← StableHlo.after_append, List.take_append_drop]

section FirstStretch

variable (Wv : Valuation τ sig (Elt Ideal)) (A : RS4x8192) (B : RS8192x8192)
  (hX : get (StableHlo.TRef.of main_call0_v0 : StableHlo.TRef sig ⟨S4x8192, .f32⟩) Wv = Cert.ReferenceIdeal.ReadP.val_main_v0 (F := Ideal) A B)

set_option maxHeartbeats 4000000 in
include hX in
/-- The 4 × 4 rectified distance matrix of the product's rows. -/
theorem first_e2 : get (StableHlo.TRef.of main_call0_v19 : StableHlo.TRef sig ⟨S4x4, .f32⟩) (after ((hostOps1 (F := Ideal)).take 31) Wv)
    = Cert.ReferenceIdeal.ReadP.val_main_v35 (F := Ideal) A B := by
  simp only [hostOps1, List.take_succ_cons, List.take_zero]
  typed_results
  simp only [hX]
  rfl

set_option maxHeartbeats 4000000 in
include hX in
/-- Its lower-right corner is the reference's 3 × 3 matrix. -/
theorem first_e : get (StableHlo.TRef.of main_call0_v20 : StableHlo.TRef sig ⟨S3x3, .f32⟩) (after ((hostOps1 (F := Ideal)).take 31) Wv)
    = Cert.ReferenceIdeal.ReadP.val_main_v40 (F := Ideal) A B := by
  rw [← Cert.ReferenceIdeal.Corner.corner A B slices_S4x4_S3x3_1_1]
  simp only [hostOps1, List.take_succ_cons, List.take_zero]
  typed_results
  simp only [hX]
  rfl

set_option maxHeartbeats 4000000 in
theorem first_X : get (StableHlo.TRef.of main_call0_v0 : StableHlo.TRef sig ⟨S4x8192, .f32⟩) (after ((hostOps1 (F := Ideal)).take 31) Wv)
    = get (StableHlo.TRef.of main_call0_v0 : StableHlo.TRef sig ⟨S4x8192, .f32⟩) Wv := by
  simp only [hostOps1, List.take_succ_cons, List.take_zero]
  typed_results

set_option maxHeartbeats 4000000 in
theorem first_adj : get (StableHlo.TRef.of main_arg1 : StableHlo.TRef sig ⟨S3x3, .i32⟩) (after ((hostOps1 (F := Ideal)).take 31) Wv)
    = get (StableHlo.TRef.of main_arg1 : StableHlo.TRef sig ⟨S3x3, .i32⟩) Wv := by
  simp only [hostOps1, List.take_succ_cons, List.take_zero]
  typed_results

end FirstStretch

section Middle

variable (VA : Valuation τ sig (Elt Ideal)) (A : RS4x8192) (B : RS8192x8192) (J : RS3x3i)
  (h0 : get (StableHlo.TRef.of main_call0_v0 : StableHlo.TRef sig ⟨S4x8192, .f32⟩) VA = Cert.ReferenceIdeal.ReadP.val_main_v0 (F := Ideal) A B)
  (h19 : get (StableHlo.TRef.of main_call0_v19 : StableHlo.TRef sig ⟨S4x4, .f32⟩) VA = Cert.ReferenceIdeal.ReadP.val_main_v35 (F := Ideal) A B)
  (h20 : get (StableHlo.TRef.of main_call0_v20 : StableHlo.TRef sig ⟨S3x3, .f32⟩) VA = Cert.ReferenceIdeal.ReadP.val_main_v40 (F := Ideal) A B)
  (h1 : get (StableHlo.TRef.of main_arg1 : StableHlo.TRef sig ⟨S3x3, .i32⟩) VA = J)

set_option maxHeartbeats 16000000 in
include h0 h19 h20 h1 in
/-- The last small product: the column softmax of the masked 3 × 3 matrix times the last three rows of X. -/
theorem mid_rows : get (StableHlo.TRef.of main_call0_v87 : StableHlo.TRef sig ⟨S3x8192, .f32⟩) (after (((hostOps1 (F := Ideal)).drop 31).take 90) VA)
    = Cert.ReferenceIdeal.ReadP.val_main_v107 (F := Ideal) A J B := by
  simp only [hostOps1, List.drop_succ_cons, List.drop_zero, List.take_succ_cons, List.take_zero]
  typed_results
  simp only [h0, h19, h20, h1]
  rfl

set_option maxHeartbeats 16000000 in
include h0 in
/-- The first row of X. -/
theorem mid_row0 : get (StableHlo.TRef.of main_call0_v88 : StableHlo.TRef sig ⟨S1x8192, .f32⟩) (after (((hostOps1 (F := Ideal)).drop 31).take 90) VA)
    = Cert.ReferenceIdeal.ReadP.val_main_v108 (F := Ideal) A B := by
  simp only [hostOps1, List.drop_succ_cons, List.drop_zero, List.take_succ_cons, List.take_zero]
  typed_results
  simp only [h0]
  rfl

set_option maxHeartbeats 16000000 in
include h19 in
theorem mid_s1 : get (StableHlo.TRef.of main_v0_1 : StableHlo.TRef sig ⟨S_, .f32⟩) (after (((hostOps1 (F := Ideal)).drop 31).take 90) VA)
    = Cert.ReferenceIdeal.ReadP.val_main_v49 (F := Ideal) A B := by
  simp only [hostOps1, List.drop_succ_cons, List.drop_zero, List.take_succ_cons, List.take_zero]
  typed_results
  simp only [h19]
  rfl

set_option maxHeartbeats 16000000 in
include h19 in
theorem mid_s2 : get (StableHlo.TRef.of main_v0_2 : StableHlo.TRef sig ⟨S_, .f32⟩) (after (((hostOps1 (F := Ideal)).drop 31).take 90) VA)
    = Cert.ReferenceIdeal.ReadP.val_main_v58 (F := Ideal) A B := by
  simp only [hostOps1, List.drop_succ_cons, List.drop_zero, List.take_succ_cons, List.take_zero]
  typed_results
  simp only [h19]
  rfl

set_option maxHeartbeats 16000000 in
include h19 in
theorem mid_s3 : get (StableHlo.TRef.of main_v0_3 : StableHlo.TRef sig ⟨S_, .f32⟩) (after (((hostOps1 (F := Ideal)).drop 31).take 90) VA)
    = Cert.ReferenceIdeal.ReadP.val_main_v67 (F := Ideal) A B := by
  simp only [hostOps1, List.drop_succ_cons, List.drop_zero, List.take_succ_cons, List.take_zero]
  typed_results
  simp only [h19]
  rfl

end Middle

section Whole

variable (Wv : Valuation τ sig (Elt Ideal)) (A : RS4x8192) (B : RS8192x8192) (J : RS3x3i)
  (hX : get (StableHlo.TRef.of main_call0_v0 : StableHlo.TRef sig ⟨S4x8192, .f32⟩) Wv = Cert.ReferenceIdeal.ReadP.val_main_v0 (F := Ideal) A B)
  (hJ : get (StableHlo.TRef.of main_arg1 : StableHlo.TRef sig ⟨S3x3, .i32⟩) Wv = J)

set_option maxHeartbeats 16000000 in
include hX hJ in
theorem tail0 : get (StableHlo.TRef.of main_v0_0 : StableHlo.TRef sig ⟨S4x8192, .f32⟩) (after (hostOps1 (F := Ideal)) Wv)
    = Cert.ReferenceIdeal.ReadP.val_main_v109 (F := Ideal) A J B := by
  rw [after_cut 31 hostOps1, after_cut 90 ((hostOps1 (F := Ideal)).drop 31)]
  have h87 := mid_rows _ A B J ((first_X Wv).trans hX) (first_e2 Wv A B hX) (first_e Wv A B hX) ((first_adj Wv).trans hJ)
  have h88 := mid_row0 _ A B ((first_X Wv).trans hX)
  generalize after (((hostOps1 (F := Ideal)).drop 31).take 90) (after ((hostOps1 (F := Ideal)).take 31) Wv) = V3 at h87 h88 ⊢
  simp only [hostOps1, List.drop_succ_cons, List.drop_zero]
  typed_results
  rw [h88, h87]
  rfl

set_option maxHeartbeats 16000000 in
include hX in
theorem tail1 : get (StableHlo.TRef.of main_v0_1 : StableHlo.TRef sig ⟨S_, .f32⟩) (after (hostOps1 (F := Ideal)) Wv)
    = Cert.ReferenceIdeal.ReadP.val_main_v49 (F := Ideal) A B := by
  rw [after_cut 31 hostOps1, after_cut 90 ((hostOps1 (F := Ideal)).drop 31)]
  have h := mid_s1 _ A B (first_e2 Wv A B hX)
  generalize after (((hostOps1 (F := Ideal)).drop 31).take 90) (after ((hostOps1 (F := Ideal)).take 31) Wv) = V3 at h ⊢
  simp only [hostOps1, List.drop_succ_cons, List.drop_zero]
  typed_results
  exact h

set_option maxHeartbeats 16000000 in
include hX in
theorem tail2 : get (StableHlo.TRef.of main_v0_2 : StableHlo.TRef sig ⟨S_, .f32⟩) (after (hostOps1 (F := Ideal)) Wv)
    = Cert.ReferenceIdeal.ReadP.val_main_v58 (F := Ideal) A B := by
  rw [after_cut 31 hostOps1, after_cut 90 ((hostOps1 (F := Ideal)).drop 31)]
  have h := mid_s2 _ A B (first_e2 Wv A B hX)
  generalize after (((hostOps1 (F := Ideal)).drop 31).take 90) (after ((hostOps1 (F := Ideal)).take 31) Wv) = V3 at h ⊢
  simp only [hostOps1, List.drop_succ_cons, List.drop_zero]
  typed_results
  exact h

set_option maxHeartbeats 16000000 in
include hX in
theorem tail3 : get (StableHlo.TRef.of main_v0_3 : StableHlo.TRef sig ⟨S_, .f32⟩) (after (hostOps1 (F := Ideal)) Wv)
    = Cert.ReferenceIdeal.ReadP.val_main_v67 (F := Ideal) A B := by
  rw [after_cut 31 hostOps1, after_cut 90 ((hostOps1 (F := Ideal)).drop 31)]
  have h := mid_s3 _ A B (first_e2 Wv A B hX)
  generalize after (((hostOps1 (F := Ideal)).drop 31).take 90) (after ((hostOps1 (F := Ideal)).take 31) Wv) = V3 at h ⊢
  simp only [hostOps1, List.drop_succ_cons, List.drop_zero]
  typed_results
  exact h

end Whole

/-! ## The run with its four results -/

section Run

variable (m : (ℓ : Loc nD τ sig) → Buf (Elt Ideal) ℓ) (ρ : Dev nD → PrngReg)

/-- The buffers as the host lines find them: the region's result array holds the product … -/
theorem found_X (c : Dev nD) :
    get (StableHlo.TRef.of main_call0_v0 : StableHlo.TRef sig ⟨S4x8192, .f32⟩) (Pipeline.withArrays spec0 c (V0 m c) fun w => (dats m 0 c).arrAt w cfg0.N)
      = Cert.ReferenceIdeal.ReadP.val_main_v0 (F := Ideal) (m ((c.tc : Thread nD τ).loc main_arg0)) (m ((c.tc : Thread nD τ).loc main_arg2)) := by
  have hW := ((Pipeline.withArrays_arr spec0 launch0.win.arr_inj c (V0 m c) (fun w => (dats m 0 c).arrAt w cfg0.N) 2).trans (final m c)).trans (product_eq _ _)
  unfold Cert.LibTypedRead.get
  exact (congrArg (StableHlo.TRef.ofBuf (Val := Elt Ideal) (StableHlo.TRef.of main_call0_v0 : StableHlo.TRef sig ⟨S4x8192, .f32⟩)) hW).trans rfl

/-- … and the integer argument its launch contents. -/
theorem found_J (c : Dev nD) :
    get (StableHlo.TRef.of main_arg1 : StableHlo.TRef sig ⟨S3x3, .i32⟩) (Pipeline.withArrays spec0 c (V0 m c) fun w => (dats m 0 c).arrAt w cfg0.N)
      = m ((c.tc : Thread nD τ).loc main_arg1) := by
  have hW : (Pipeline.withArrays spec0 c (V0 m c) fun w => (dats m 0 c).arrAt w cfg0.N) (Proc.devRef .tc main_arg1) = m ((c.tc : Thread nD τ).loc main_arg1) := by
    rw [Pipeline.withArrays_of_ne _ _ _ _ main_arg1 (by decide)]
    rfl
  unfold Cert.LibTypedRead.get
  exact (congrArg (StableHlo.TRef.ofBuf (Val := Elt Ideal) (StableHlo.TRef.of main_arg1 : StableHlo.TRef sig ⟨S3x3, .i32⟩)) hW).trans rfl

theorem res_rest : ∀ b ∈ [main_v0_0, main_v0_1, main_v0_2, main_v0_3], b ∈ Pipeline.restRefs sig spec0 := by
  intro b hb
  simp only [List.mem_cons, List.mem_nil_iff, or_false] at hb
  rcases hb with rfl | rfl | rfl | rfl <;> exact Pipeline.mem_restRefs_of _ rfl (by decide)

/-- Every weakly fair execution of the idealized kernel program terminates with its four results at the reference's
    stages of the same arguments, and its arguments unchanged. -/
theorem run_results : θ_run defs (onTc (τ := τ) (main (F := Ideal))) ⟨m, fun _ => 0, ρ⟩ (fun r => ∀ c : Dev nD,
      r.2.mem ((c.tc : Thread nD τ).loc main_v0_0) = Cert.ReferenceIdeal.ReadP.val_main_v109 (F := Ideal) (m ((c.tc : Thread nD τ).loc main_arg0)) (m ((c.tc : Thread nD τ).loc main_arg1)) (m ((c.tc : Thread nD τ).loc main_arg2))
      ∧ r.2.mem ((c.tc : Thread nD τ).loc main_v0_1) = Cert.ReferenceIdeal.ReadP.val_main_v49 (F := Ideal) (m ((c.tc : Thread nD τ).loc main_arg0)) (m ((c.tc : Thread nD τ).loc main_arg2))
      ∧ r.2.mem ((c.tc : Thread nD τ).loc main_v0_2) = Cert.ReferenceIdeal.ReadP.val_main_v58 (F := Ideal) (m ((c.tc : Thread nD τ).loc main_arg0)) (m ((c.tc : Thread nD τ).loc main_arg2))
      ∧ r.2.mem ((c.tc : Thread nD τ).loc main_v0_3) = Cert.ReferenceIdeal.ReadP.val_main_v67 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v0_0 (res_rest _ (by simp))).trans (by
        unfold Pipeline.afterTail₀
        show after hostOps1 _ (Proc.devRef .tc main_v0_0) = _
        exact (eq_toBuf_of_get (StableHlo.TRef.of main_v0_0 : StableHlo.TRef sig ⟨S4x8192, .f32⟩) _ _ (tail0 _ _ _ _ (found_X m c) (found_J m c))).trans rfl),
     ((h c).2 main_v0_1 (res_rest _ (by simp))).trans (by
        unfold Pipeline.afterTail₀
        show after hostOps1 _ (Proc.devRef .tc main_v0_1) = _
        exact (eq_toBuf_of_get (StableHlo.TRef.of main_v0_1 : StableHlo.TRef sig ⟨S_, .f32⟩) _ _ (tail1 _ _ _ (found_X m c))).trans rfl),
     ((h c).2 main_v0_2 (res_rest _ (by simp))).trans (by
        unfold Pipeline.afterTail₀
        show after hostOps1 _ (Proc.devRef .tc main_v0_2) = _
        exact (eq_toBuf_of_get (StableHlo.TRef.of main_v0_2 : StableHlo.TRef sig ⟨S_, .f32⟩) _ _ (tail2 _ _ _ (found_X m c))).trans rfl),
     ((h c).2 main_v0_3 (res_rest _ (by simp))).trans (by
        unfold Pipeline.afterTail₀
        show after hostOps1 _ (Proc.devRef .tc main_v0_3) = _
        exact (eq_toBuf_of_get (StableHlo.TRef.of main_v0_3 : StableHlo.TRef sig ⟨S_, .f32⟩) _ _ (tail3 _ _ _ (found_X m c))).trans rfl),
     ((h c).1 0).trans (((dats m 0 c).arrAt_in 0 rfl _).trans ((A_eq m c 0).trans (V_main_arg0 m c))),
     ((h c).2 main_arg1 main_arg1_rest).trans (tail_arg1 m (dats m) c),
     ((h c).1 1).trans (((dats m 0 c).arrAt_in 1 rfl _).trans ((A_eq m c 1).trans (V_main_arg2 m c)))⟩)
    (run_main m ρ)

end Run

end Cert.KernelIdeal.Acc

end
-- ==== Proof.RefRunFold.lean ====
/-
  The reference's run, each buffer at the fold of its host operations.
  The reference is a straight line of 154 host operations; every weakly fair execution terminates and leaves every
  TensorCore buffer at the value obtained by applying the operations in order to the launch memory. Buffers that no
  operation writes — the three arguments — keep their launch contents.
-/
import proofs.«149369_j84310208020843_2_alg».proof.Proof.RefRun

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The launch memory of device `c` as a valuation of its TensorCore buffers. -/
abbrev M (m : (ℓ : Loc nD τ sig) → Buf (Elt F) ℓ) (c : Dev nD) : Valuation τ sig (Elt F) := launchContents m c

set_option maxRecDepth 8192 in
set_option maxHeartbeats 4000000 in
/-- Every weakly fair execution of the reference terminates with every buffer at the fold of the operations. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (M m c) (Proc.devRef .tc b) :=
  run_seq scopedRefs_eq scopedSems_eq defs main (fun _ => ops) main_eq (fun _ => ops_sub) m ρ

end Cert.ReferenceIdeal.Fold

end
-- ==== Proof.RefResults.lean ====
/-
  The reference's four results as stages of its host operations.
  The fold of the 154 operations is read in two stretches. The first 63 operations produce the matrix product X of the
  two float arguments, the 4 × 4 rectified distance matrix of X's rows and the 3 × 3 one of its last three rows; the
  remaining 91 read only these three arrays and the integer argument. Reading each stretch by itself keeps every term
  small: the second stretch's results are written over the first stretch's three arrays as they stand.
-/
import proofs.«149369_j84310208020843_2_alg».proof.Proof.RefRunFold
import proofs.«149369_j84310208020843_2_alg».proof.Proof.RefRead
import Idealize.ShloMosaic.Lib.Pipeline.Frame

set_option maxRecDepth 100000

noncomputable section

namespace Cert.ReferenceIdeal.Fold

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- The operations in two stretches. -/
theorem ops_split (V : Valuation τ sig (Elt Ideal)) :
    after (ops (F := Ideal)) V = after ((ops (F := Ideal)).drop 63) (after ((ops (F := Ideal)).take 63) V) := by
  rw [← StableHlo.after_append, List.take_append_drop]

section FirstStretch

variable (Wv : Valuation τ sig (Elt Ideal))

set_option maxHeartbeats 4000000 in
theorem first_v0 : after ((ops (F := Ideal)).take 63) Wv (Proc.devRef .tc main_v0)
    = val_main_v0 (F := Ideal) (Wv (Proc.devRef .tc main_arg0)) (Wv (Proc.devRef .tc main_arg2)) := by
  simp only [ops, List.take_succ_cons, List.take_zero]
  after_results_simp
  try rfl

set_option maxHeartbeats 4000000 in
theorem first_v35 : after ((ops (F := Ideal)).take 63) Wv (Proc.devRef .tc main_v35)
    = val_main_v35 (F := Ideal) (Wv (Proc.devRef .tc main_arg0)) (Wv (Proc.devRef .tc main_arg2)) := by
  simp only [ops, List.take_succ_cons, List.take_zero]
  after_results_simp
  try rfl

set_option maxHeartbeats 4000000 in
theorem first_v40 : after ((ops (F := Ideal)).take 63) Wv (Proc.devRef .tc main_v40)
    = val_main_v40 (F := Ideal) (Wv (Proc.devRef .tc main_arg0)) (Wv (Proc.devRef .tc main_arg2)) := by
  simp only [ops, List.take_succ_cons, List.take_zero]
  after_results_simp
  try rfl

set_option maxHeartbeats 4000000 in
theorem first_arg1 : after ((ops (F := Ideal)).take 63) Wv (Proc.devRef .tc main_arg1) = Wv (Proc.devRef .tc main_arg1) := by
  simp only [ops, List.take_succ_cons, List.take_zero]
  after_results_simp
  try rfl

end FirstStretch

section SecondStretch

variable (m : (ℓ : Loc nD τ sig) → Buf (Elt Ideal) ℓ) (c : Dev nD)

/-- Any list of operations read in two stretches. -/
theorem after_cut (n : ℕ) (l : List (HloOp τ sig (Elt Ideal))) (V : Valuation τ sig (Elt Ideal)) :
    after l V = after (l.drop n) (after (l.take n) V) := by
  rw [← StableHlo.after_append, List.take_append_drop]

section Middle

variable (VA : Valuation τ sig (Elt Ideal))
  (x0 : (⟨S4x8192, .f32⟩ : BufTy).Contents (Elt Ideal)) (x1 : (⟨S3x3, .i32⟩ : BufTy).Contents (Elt Ideal)) (x2 : (⟨S8192x8192, .f32⟩ : BufTy).Contents (Elt Ideal))
  (h0 : VA (Proc.devRef .tc main_v0) = val_main_v0 (F := Ideal) x0 x2)
  (h35 : VA (Proc.devRef .tc main_v35) = val_main_v35 (F := Ideal) x0 x2)
  (h40 : VA (Proc.devRef .tc main_v40) = val_main_v40 (F := Ideal) x0 x2)
  (h1 : VA (Proc.devRef .tc main_arg1) = x1)

set_option maxHeartbeats 16000000 in
include h0 h35 h40 h1 in
/-- The last small product (the column softmax of the masked 3 × 3 matrix times the last three rows of X). -/
theorem mid_v107 : after (((ops (F := Ideal)).drop 63).take 90) VA (Proc.devRef .tc main_v107) = val_main_v107 (F := Ideal) x0 x1 x2 := by
  simp only [ops, List.drop_succ_cons, List.drop_zero, List.take_succ_cons, List.take_zero]
  after_results_simp
  simp only [h0, h35, h40, h1]
  rfl

set_option maxHeartbeats 16000000 in
include h0 in
/-- The first row of X. -/
theorem mid_v108 : after (((ops (F := Ideal)).drop 63).take 90) VA (Proc.devRef .tc main_v108) = val_main_v108 (F := Ideal) x0 x2 := by
  simp only [ops, List.drop_succ_cons, List.drop_zero, List.take_succ_cons, List.take_zero]
  after_results_simp
  simp only [h0]
  rfl

end Middle

set_option maxHeartbeats 8000000 in
theorem result0 : after (ops (F := Ideal)) (M m c) (Proc.devRef .tc main_v109)
    = val_main_v109 (F := Ideal) (m ((c.tc : Thread nD τ).loc main_arg0)) (m ((c.tc : Thread nD τ).loc main_arg1)) (m ((c.tc : Thread nD τ).loc main_arg2)) := by
  rw [after_cut 63 ops, after_cut 90 ((ops (F := Ideal)).drop 63)]
  have h107 := mid_v107 _ _ _ _ (first_v0 (M m c)) (first_v35 (M m c)) (first_v40 (M m c)) (first_arg1 (M m c))
  have h108 := mid_v108 _ _ _ (first_v0 (M m c))
  generalize after (((ops (F := Ideal)).drop 63).take 90) (after ((ops (F := Ideal)).take 63) (M m c)) = V3 at h107 h108 ⊢
  simp only [ops, List.drop_succ_cons, List.drop_zero]
  after_results_simp
  rw [h108, h107]
  rfl

set_option maxHeartbeats 8000000 in
theorem result1 : after (ops (F := Ideal)) (M m c) (Proc.devRef .tc main_v49)
    = val_main_v49 (F := Ideal) (m ((c.tc : Thread nD τ).loc main_arg0)) (m ((c.tc : Thread nD τ).loc main_arg2)) := by
  rw [ops_split]
  have h35 := first_v35 (M m c)
  generalize after ((ops (F := Ideal)).take 63) (M m c) = VA at h35 ⊢
  simp only [ops, List.drop_succ_cons, List.drop_zero]
  after_results_simp
  simp only [h35]
  rfl

set_option maxHeartbeats 8000000 in
theorem result2 : after (ops (F := Ideal)) (M m c) (Proc.devRef .tc main_v58)
    = val_main_v58 (F := Ideal) (m ((c.tc : Thread nD τ).loc main_arg0)) (m ((c.tc : Thread nD τ).loc main_arg2)) := by
  rw [ops_split]
  have h35 := first_v35 (M m c)
  generalize after ((ops (F := Ideal)).take 63) (M m c) = VA at h35 ⊢
  simp only [ops, List.drop_succ_cons, List.drop_zero]
  after_results_simp
  simp only [h35]
  rfl

set_option maxHeartbeats 8000000 in
theorem result3 : after (ops (F := Ideal)) (M m c) (Proc.devRef .tc main_v67)
    = val_main_v67 (F := Ideal) (m ((c.tc : Thread nD τ).loc main_arg0)) (m ((c.tc : Thread nD τ).loc main_arg2)) := by
  rw [ops_split]
  have h35 := first_v35 (M m c)
  generalize after ((ops (F := Ideal)).take 63) (M m c) = VA at h35 ⊢
  simp only [ops, List.drop_succ_cons, List.drop_zero]
  after_results_simp
  simp only [h35]
  rfl

set_option maxHeartbeats 16000000 in
/-- No operation writes an argument: each keeps its launch contents. -/
theorem kept0 : after (ops (F := Ideal)) (M m c) (Proc.devRef .tc main_arg0) = m ((c.tc : Thread nD τ).loc main_arg0) := by
  simp only [ops]; after_results_simp; try rfl
set_option maxHeartbeats 16000000 in
theorem kept1 : after (ops (F := Ideal)) (M m c) (Proc.devRef .tc main_arg1) = m ((c.tc : Thread nD τ).loc main_arg1) := by
  simp only [ops]; after_results_simp; try rfl
set_option maxHeartbeats 16000000 in
theorem kept2 : after (ops (F := Ideal)) (M m c) (Proc.devRef .tc main_arg2) = m ((c.tc : Thread nD τ).loc main_arg2) := by
  simp only [ops]; after_results_simp; try rfl

end SecondStretch

end Cert.ReferenceIdeal.Fold

end
-- ==== Proof.lean ====
/-
  A 4 × 8192 by 8192 × 8192 matrix product computed block by block on a 4 × 4 grid — for each of four column blocks
  of the result, an accumulator cleared at the first of four contraction blocks, increased by one block product at each,
  and copied out at the last — followed by 122 host lines (pairwise row distances, a leaky rectifier, a few entries
  overwritten, a masked column softmax, one more small product), against the same computation written with one whole
  matrix product.
  The frames of the two kernel programs come from the accumulation (Proof/Word/Accumulate.lean at the word level,
  Proof/Ideal/Accumulate.lean at the exact instance); the reference's from the fold of its host operations. On extended
  reals the four block products of a column block add up to the whole contraction (sums may be regrouped freely), so
  the region's result is the reference's product; the host lines after it compute, from that matrix, what the
  reference's lines compute from its own (Proof/Ideal/Tail.lean), the one difference — the 3 × 3 distance matrix taken
  as a corner of the 4 × 4 one instead of recomputed — being an equality of the same finite sums (Proof/Corner.lean).
  The ideal pass rewrote nothing, so `preserves` asks nothing. The precondition is never opened: no step needs finiteness.
-/
import proofs.«149369_j84310208020843_2_alg».proof.Defs
import proofs.«149369_j84310208020843_2_alg».proof.Proof.Gen.Kernel
import proofs.«149369_j84310208020843_2_alg».proof.Proof.Gen.KernelIdeal
import proofs.«149369_j84310208020843_2_alg».proof.Proof.Gen.ReferenceIdeal
import proofs.«149369_j84310208020843_2_alg».proof.Proof.Gen.Pre_finite_inputs
import proofs.«149369_j84310208020843_2_alg».proof.Proof.Word.Accumulate
import proofs.«149369_j84310208020843_2_alg».proof.Proof.Ideal.Tail
import proofs.«149369_j84310208020843_2_alg».proof.Proof.RefResults
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Acc.frame m ρ

theorem frame_pi : Cert.frame_KernelIdeal (hKernelIdeal := Cert.KernelIdeal.Gen.facts) (hPre_finite_inputs := Cert.Pre_finite_inputs.Gen.facts) :=
  fun m ρ _ => Cert.KernelIdeal.Acc.frame m ρ

/-- The reference's arguments end unchanged: no host operation writes them. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun _ h c => ⟨(h c _).trans (Cert.ReferenceIdeal.Fold.kept0 m c), (h c _).trans (Cert.ReferenceIdeal.Fold.kept1 m c),
      (h c _).trans (Cert.ReferenceIdeal.Fold.kept2 m c)⟩)
    (Cert.ReferenceIdeal.Fold.run (F := Ideal) m ρ)

theorem preserves : Cert.preserves_Kernel_KernelIdeal := trivial

/-- Both idealized programs end with the reference's stages of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, _, Cert.KernelIdeal.Acc.run_results m ρ, ?_⟩
  refine (θ_run Cert.ReferenceIdeal.defs _ _).mono (fun _ h c => ?_) (Cert.ReferenceIdeal.Fold.run (F := Ideal) m' ρ')
  obtain ⟨e0, e1, e2⟩ := hagree c
  refine ⟨?_, ?_, ?_, ?_, (h c _).trans (Cert.ReferenceIdeal.Fold.kept0 m' c), (h c _).trans (Cert.ReferenceIdeal.Fold.kept1 m' c),
    (h c _).trans (Cert.ReferenceIdeal.Fold.kept2 m' c)⟩
  · rw [h c, Cert.ReferenceIdeal.Fold.result0, e0, e1, e2]
  · rw [h c, Cert.ReferenceIdeal.Fold.result1, e0, e2]
  · rw [h c, Cert.ReferenceIdeal.Fold.result2, e0, e2]
  · rw [h c, Cert.ReferenceIdeal.Fold.result3, e0, e2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
